-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v40)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v40) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v60) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S700000 : Shape := ⟨1, ![700000]⟩
abbrev S896x128 : Shape := ⟨2, ![896, 128]⟩
abbrev S128 : Shape := ⟨1, ![128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S896x128 : S_.BroadcastsInDim S896x128 (![] : Fin 0 → Fin S896x128.rank)
  reducesTo_S896x128_S_d0_1 : S896x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  main_v18

def fn {F : FTy → Type} [FloatOps F] (main_arg0 : FVec F S100000x128 .f32) (main_arg1 : IVec S700000 32) (main_arg2 : IVec S700000 32) (main_arg3 : IVec S700000 32) (main_arg4 : FVec F S896x128 .f32) (main_arg5 : FVec F S128 .f32) (main_arg6 : FVec F S128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S896x128 .f32 := Host.absf main_arg4
  let main_cst_0 : FVec F S_ .f32 := constant S_ .f32 0x7F800000#32
  let main_v5 : FVec F S896x128 .f32 := broadcastInDim S896x128 ![] bcast_S_S896x128 main_cst_0
  let main_v6 : IVec S896x128 1 := cmpf .olt main_v4 main_v5
  let main_c_1 : IVec S_ 1 := constantI S_ 1 1#1
  let main_v7 : IVec S_ 1 := (fun x v => Host.reduce IntOp.andi x v reducesTo_S896x128_S_d0_1 h_S_) main_v6 main_c_1
  let main_v8 : IVec S_ 1 := andi main_v3 main_v7
  let main_v9 : FVec F S128 .f32 := Host.absf main_arg5
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128 .f32 := Host.absf main_arg6
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_v13 main_v16
-- ==== Kernel.lean ====
abbrev S100000x128 : Shape := ⟨2, ![100000, 128]⟩
abbrev S700000 : Shape := ⟨1, ![700000]⟩
abbrev S896x128 : Shape := ⟨2, ![896, 128]⟩
abbrev S128 : Shape := ⟨1, ![128]⟩
abbrev S_ : Shape := ⟨0, ![]⟩
abbrev S700000x1 : Shape := ⟨2, ![700000, 1]⟩
abbrev S700000x128 : Shape := ⟨2, ![700000, 128]⟩
abbrev S100000x896 : Shape := ⟨2, ![100000, 896]⟩
abbrev S100000x7 : Shape := ⟨2, ![100000, 7]⟩
abbrev S100x1x128 : Shape := ⟨3, ![100, 1, 128]⟩
abbrev S1000x896 : Shape := ⟨2, ![1000, 896]⟩
abbrev S1000x7 : Shape := ⟨2, ![1000, 7]⟩
abbrev S1000x128 : Shape := ⟨2, ![1000, 128]⟩
abbrev S1x1x128 : Shape := ⟨3, ![1, 1, 128]⟩
abbrev S1000x1 : Shape := ⟨2, ![1000, 1]⟩
abbrev S128x128 : Shape := ⟨2, ![128, 128]⟩
abbrev S1x128 : Shape := ⟨2, ![1, 128]⟩
abbrev S100x128 : Shape := ⟨2, ![100, 128]⟩
abbrev S5000x128 : Shape := ⟨2, ![5000, 128]⟩

abbrev nBuf : Space → Nat
  | .hbm => 63
  | .vmem => 21
  | .smem => 0
  | _ => 0

abbrev bufTy : (tb : Table) → Fin (tcTables nBuf tb) → BufTy
  | .hbm, ⟨0, _⟩ => ⟨S100000x128, .f32⟩
  | .hbm, ⟨1, _⟩ => ⟨S700000, .i32⟩
  | .hbm, ⟨2, _⟩ => ⟨S700000, .i32⟩
  | .hbm, ⟨3, _⟩ => ⟨S700000, .i32⟩
  | .hbm, ⟨4, _⟩ => ⟨S896x128, .f32⟩
  | .hbm, ⟨5, _⟩ => ⟨S128, .f32⟩
  | .hbm, ⟨6, _⟩ => ⟨S128, .f32⟩
  | .hbm, ⟨7, _⟩ => ⟨S_, .i32⟩
  | .hbm, ⟨8, _⟩ => ⟨S700000, .i32⟩
  | .hbm, ⟨9, _⟩ => ⟨S700000, .i32⟩
  | .hbm, ⟨10, _⟩ => ⟨S700000, .i32⟩
  | .hbm, ⟨11, _⟩ => ⟨S_, .i32⟩
  | .hbm, ⟨12, _⟩ => ⟨S700000, .i32⟩
  | .hbm, ⟨13, _⟩ => ⟨S700000, .i1⟩
  | .hbm, ⟨14, _⟩ => ⟨S_, .i32⟩
  | .hbm, ⟨15, _⟩ => ⟨S700000, .i32⟩
  | .hbm, ⟨16, _⟩ => ⟨S700000, .i32⟩
  | .hbm, ⟨17, _⟩ => ⟨S700000, .i32⟩
  | .hbm, ⟨18, _⟩ => ⟨S700000x1, .i32⟩
  | .hbm, ⟨19, _⟩ => ⟨S700000x128, .f32⟩
  | .hbm, ⟨20, _⟩ => ⟨S_, .f32⟩
  | .hbm, ⟨21, _⟩ => ⟨S700000x128, .f32⟩
  | .hbm, ⟨22, _⟩ => ⟨S700000x1, .i32⟩
  | .hbm, ⟨23, _⟩ => ⟨S700000x128, .f32⟩
  | .hbm, ⟨24, _⟩ => ⟨S_, .f32⟩
  | .hbm, ⟨25, _⟩ => ⟨S700000, .f32⟩
  | .hbm, ⟨26, _⟩ => ⟨S_, .f32⟩
  | .hbm, ⟨27, _⟩ => ⟨S700000, .f32⟩
  | .hbm, ⟨28, _⟩ => ⟨S700000x1, .i32⟩
  | .hbm, ⟨29, _⟩ => ⟨S700000, .f32⟩
  | .hbm, ⟨30, _⟩ => ⟨S_, .f32⟩
  | .hbm, ⟨31, _⟩ => ⟨S700000, .f32⟩
  | .hbm, ⟨32, _⟩ => ⟨S700000, .f32⟩
  | .hbm, ⟨33, _⟩ => ⟨S_, .f32⟩
  | .hbm, ⟨34, _⟩ => ⟨S700000, .f32⟩
  | .hbm, ⟨35, _⟩ => ⟨S700000, .f32⟩
  | .hbm, ⟨36, _⟩ => ⟨S100000x896, .f32⟩
  | .hbm, ⟨37, _⟩ => ⟨S100000x7, .f32⟩
  | .hbm, ⟨38, _⟩ => ⟨S100000x128, .f32⟩
  | .hbm, ⟨39, _⟩ => ⟨S100x1x128, .f32⟩
  | .hbm, ⟨40, _⟩ => ⟨S100x1x128, .f32⟩
  | .hbm, ⟨41, _⟩ => ⟨S100x128, .f32⟩
  | .hbm, ⟨42, _⟩ => ⟨S_, .f32⟩
  | .hbm, ⟨43, _⟩ => ⟨S128, .f32⟩
  | .hbm, ⟨44, _⟩ => ⟨S1x128, .f32⟩
  | .hbm, ⟨45, _⟩ => ⟨S100x128, .f32⟩
  | .hbm, ⟨46, _⟩ => ⟨S_, .f32⟩
  | .hbm, ⟨47, _⟩ => ⟨S128, .f32⟩
  | .hbm, ⟨48, _⟩ => ⟨S1x128, .f32⟩
  | .hbm, ⟨49, _⟩ => ⟨S_, .f32⟩
  | .hbm, ⟨50, _⟩ => ⟨S1x128, .f32⟩
  | .hbm, ⟨51, _⟩ => ⟨S1x128, .f32⟩
  | .hbm, ⟨52, _⟩ => ⟨S_, .f32⟩
  | .hbm, ⟨53, _⟩ => ⟨S1x128, .f32⟩
  | .hbm, ⟨54, _⟩ => ⟨S1x128, .f32⟩
  | .hbm, ⟨55, _⟩ => ⟨S1x128, .f32⟩
  | .hbm, ⟨56, _⟩ => ⟨S1x128, .f32⟩
  | .hbm, ⟨57, _⟩ => ⟨S_, .f32⟩
  | .hbm, ⟨58, _⟩ => ⟨S1x128, .f32⟩
  | .hbm, ⟨59, _⟩ => ⟨S1x128, .f32⟩
  | .hbm, ⟨60, _⟩ => ⟨S1x128, .f32⟩
  | .hbm, ⟨61, _⟩ => ⟨S1x128, .f32⟩
  | .hbm, ⟨62, _⟩ => ⟨S100000x128, .f32⟩
  | .local _ .vmem, ⟨0, _⟩ => ⟨S1000x896, .f32⟩
  | .local _ .vmem, ⟨1, _⟩ => ⟨S1000x896, .f32⟩
  | .local _ .vmem, ⟨2, _⟩ => ⟨S1000x7, .f32⟩
  | .local _ .vmem, ⟨3, _⟩ => ⟨S1000x7, .f32⟩
  | .local _ .vmem, ⟨4, _⟩ => ⟨S1000x128, .f32⟩
  | .local _ .vmem, ⟨5, _⟩ => ⟨S1000x128, .f32⟩
  | .local _ .vmem, ⟨6, _⟩ => ⟨S896x128, .f32⟩
  | .local _ .vmem, ⟨7, _⟩ => ⟨S1000x128, .f32⟩
  | .local _ .vmem, ⟨8, _⟩ => ⟨S1000x128, .f32⟩
  | .local _ .vmem, ⟨9, _⟩ => ⟨S1x1x128, .f32⟩
  | .local _ .vmem, ⟨10, _⟩ => ⟨S1x1x128, .f32⟩
  | .local _ .vmem, ⟨11, _⟩ => ⟨S1x1x128, .f32⟩
  | .local _ .vmem, ⟨12, _⟩ => ⟨S1x1x128, .f32⟩
  | .local _ .vmem, ⟨13, _⟩ => ⟨S5000x128, .f32⟩
  | .local _ .vmem, ⟨14, _⟩ => ⟨S5000x128, .f32⟩
  | .local _ .vmem, ⟨15, _⟩ => ⟨S1x128, .f32⟩
  | .local _ .vmem, ⟨16, _⟩ => ⟨S1x128, .f32⟩
  | .local _ .vmem, ⟨17, _⟩ => ⟨S1x128, .f32⟩
  | .local _ .vmem, ⟨18, _⟩ => ⟨S1x128, .f32⟩
  | .local _ .vmem, ⟨19, _⟩ => ⟨S5000x128, .f32⟩
  | .local _ .vmem, ⟨20, _⟩ => ⟨S5000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_c_0 : Ref sig .tc := ⟨.hbm, 11, rfl⟩
abbrev main_v3 : Ref sig .tc := ⟨.hbm, 12, rfl⟩
abbrev main_v4 : Ref sig .tc := ⟨.hbm, 13, rfl⟩
abbrev main_c_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_cst : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst_2 : Ref sig .tc := ⟨.hbm, 24, rfl⟩
abbrev main_v13 : Ref sig .tc := ⟨.hbm, 25, rfl⟩
abbrev main_cst_3 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_cst_4 : Ref sig .tc := ⟨.hbm, 30, rfl⟩
abbrev main_v17 : Ref sig .tc := ⟨.hbm, 31, rfl⟩
abbrev main_v18 : Ref sig .tc := ⟨.hbm, 32, rfl⟩
abbrev main_cst_5 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23_0 : Ref sig .tc := ⟨.hbm, 38, rfl⟩
abbrev main_v23_1 : Ref sig .tc := ⟨.hbm, 39, rfl⟩
abbrev main_v23_2 : Ref sig .tc := ⟨.hbm, 40, rfl⟩
abbrev main_v24 : Ref sig .tc := ⟨.hbm, 41, rfl⟩
abbrev main_cst_6 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_cst_7 : Ref sig .tc := ⟨.hbm, 46, rfl⟩
abbrev main_v28 : Ref sig .tc := ⟨.hbm, 47, rfl⟩
abbrev main_v29 : Ref sig .tc := ⟨.hbm, 48, rfl⟩
abbrev main_cst_8 : Ref sig .tc := ⟨.hbm, 49, rfl⟩
abbrev main_v30 : Ref sig .tc := ⟨.hbm, 50, rfl⟩
abbrev main_v31 : Ref sig .tc := ⟨.hbm, 51, rfl⟩
abbrev main_cst_9 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_cst_10 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc1_stg0_0 : Ref sig .tc := ⟨.vmem, 13, rfl⟩
abbrev cc1_stg0_1 : Ref sig .tc := ⟨.vmem, 14, rfl⟩
abbrev cc1_stg1_0 : Ref sig .tc := ⟨.vmem, 15, rfl⟩
abbrev cc1_stg2_0 : Ref sig .tc := ⟨.vmem, 16, rfl⟩
abbrev cc1_stg3_0 : Ref sig .tc := ⟨.vmem, 17, rfl⟩
abbrev cc1_stg4_0 : Ref sig .tc := ⟨.vmem, 18, rfl⟩
abbrev cc1_stg5_0 : Ref sig .tc := ⟨.vmem, 19, rfl⟩
abbrev cc1_stg5_1 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc1_sem0_0 : DmaSem sig := 13
abbrev cc1_sem0_1 : DmaSem sig := 14
abbrev cc1_sem1_0 : DmaSem sig := 15
abbrev cc1_sem2_0 : DmaSem sig := 16
abbrev cc1_sem3_0 : DmaSem sig := 17
abbrev cc1_sem4_0 : DmaSem sig := 18
abbrev cc1_sem5_0 : DmaSem sig := 19
abbrev cc1_sem5_1 : DmaSem sig := 20

abbrev nD : Nat := 1
abbrev τ : Topo := Topo.v7x

variable {F : FTy → Type} [FloatOps F]

abbrev grid0 : Pipeline.Grid := ⟨1, ![100], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1000x896 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1000x7 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S896x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1000x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x1x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x1x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  bcast_S_S700000 : S_.BroadcastsInDim S700000 (![] : Fin 0 → Fin S700000.rank)
  bcast_S700000_S700000x1_0 : S700000.BroadcastsInDim S700000x1 (![0] : Fin 1 → Fin S700000x1.rank)
  bcast_S_S700000x128 : S_.BroadcastsInDim S700000x128 (![] : Fin 0 → Fin S700000x128.rank)
  shapeCasts_S700000x128_S100000x896 : S700000x128.ShapeCasts S100000x896
  shapeCasts_S700000_S100000x7 : S700000.ShapeCasts S100000x7
  inb_S1000x896_S1000x128_0_0 : ∀ a, (![0, 0] : Fin 2 → Nat) a + S1000x128.size a ≤ S1000x896.size a
  h_S1000x128 : 0 < S1000x128.numel
  shapeCasts_S1000x128_S1000x128 : S1000x128.ShapeCasts S1000x128
  inb_S1000x7_S1000x1_0_0 : ∀ a, (![0, 0] : Fin 2 → Nat) a + S1000x1.size a ≤ S1000x7.size a
  h_S1000x1 : 0 < S1000x1.numel
  shapeCasts_S1000x1_S1000x1 : S1000x1.ShapeCasts S1000x1
  broadcasts_S1000x1_S1000x128 : S1000x1.Broadcasts S1000x128
  bitsLt_bf16_f32 : FTy.bits .bf16 < FTy.bits .f32
  inb_S896x128_S128x128_0_0 : ∀ a, (![0, 0] : Fin 2 → Nat) a + S128x128.size a ≤ S896x128.size a
  h_S128x128 : 0 < S128x128.numel
  inb_S1000x896_S1000x128_0_128 : ∀ a, (![0, 128] : Fin 2 → Nat) a + S1000x128.size a ≤ S1000x896.size a
  inb_S1000x7_S1000x1_0_1 : ∀ a, (![0, 1] : Fin 2 → Nat) a + S1000x1.size a ≤ S1000x7.size a
  inb_S896x128_S128x128_128_0 : ∀ a, (![128, 0] : Fin 2 → Nat) a + S128x128.size a ≤ S896x128.size a
  inb_S1000x896_S1000x128_0_256 : ∀ a, (![0, 256] : Fin 2 → Nat) a + S1000x128.size a ≤ S1000x896.size a
  inb_S1000x7_S1000x1_0_2 : ∀ a, (![0, 2] : Fin 2 → Nat) a + S1000x1.size a ≤ S1000x7.size a
  inb_S896x128_S128x128_256_0 : ∀ a, (![256, 0] : Fin 2 → Nat) a + S128x128.size a ≤ S896x128.size a
  inb_S1000x896_S1000x128_0_384 : ∀ a, (![0, 384] : Fin 2 → Nat) a + S1000x128.size a ≤ S1000x896.size a
  inb_S1000x7_S1000x1_0_3 : ∀ a, (![0, 3] : Fin 2 → Nat) a + S1000x1.size a ≤ S1000x7.size a
  inb_S896x128_S128x128_384_0 : ∀ a, (![384, 0] : Fin 2 → Nat) a + S128x128.size a ≤ S896x128.size a
  inb_S1000x896_S1000x128_0_512 : ∀ a, (![0, 512] : Fin 2 → Nat) a + S1000x128.size a ≤ S1000x896.size a
  inb_S1000x7_S1000x1_0_4 : ∀ a, (![0, 4] : Fin 2 → Nat) a + S1000x1.size a ≤ S1000x7.size a
  inb_S896x128_S128x128_512_0 : ∀ a, (![512, 0] : Fin 2 → Nat) a + S128x128.size a ≤ S896x128.size a
  inb_S1000x896_S1000x128_0_640 : ∀ a, (![0, 640] : Fin 2 → Nat) a + S1000x128.size a ≤ S1000x896.size a
  inb_S1000x7_S1000x1_0_5 : ∀ a, (![0, 5] : Fin 2 → Nat) a + S1000x1.size a ≤ S1000x7.size a
  inb_S896x128_S128x128_640_0 : ∀ a, (![640, 0] : Fin 2 → Nat) a + S128x128.size a ≤ S896x128.size a
  inb_S1000x128_S1000x128_0_0 : ∀ a, (![0, 0] : Fin 2 → Nat) a + S1000x128.size a ≤ S1000x128.size a
  inb_S896x128_S128x128_768_0 : ∀ a, (![768, 0] : Fin 2 → Nat) a + S128x128.size a ≤ S896x128.size a
  reduces_S1000x128_S128 : S1000x128.Reduces [0] S128
  shapeCasts_S128_S1x128 : S128.ShapeCasts S1x128
  shapeCasts_S1x128_S1x1x128 : S1x128.ShapeCasts S1x1x128
  inb_S1x1x128_S1x1x128_0_0_0 : ∀ a, (![0, 0, 0] : Fin 3 → Nat) a + S1x1x128.size a ≤ S1x1x128.size a
  h_S1x1x128 : 0 < S1x1x128.numel
  shapeCasts_S100x1x128_S100x128 : S100x1x128.ShapeCasts S100x128
  reducesTo_S100x128_S128_d0 : S100x128.ReducesTo [0] S128
  h_S_ : 0 < S_.numel
  bcast_S128_S1x128_1 : S128.BroadcastsInDim S1x128 (![1] : Fin 1 → Fin S1x128.rank)
  bcast_S_S1x128 : S_.BroadcastsInDim S1x128 (![] : Fin 0 → Fin S1x128.rank)
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  gather_S100000x128_S700000x1_S700000x128_1_0_n_n_0_1_1128_wf : GatherDims.WF S100000x128 S700000x1 S700000x128 [1] [0] [] [0] [] 1 ![1, 128]
  scatter_S700000x128_S700000x1_S700000x128_1_0_0_1_wf : ScatterDims.WF S700000x128 S700000x1 S700000x128 [1] [0] [0] 1
  scatter_S700000_S700000x1_S700000_n_0_0_1_wf : ScatterDims.WF S700000 S700000x1 S700000 [] [0] [0] 1
  dot_S1000x128_S128x128_S1000x128_1_0_0_1_n_n_wf : DotDims.WF S1000x128 S128x128 S1000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1000x896.size a ≤ S100000x896.size a
  hwx0_0 : ∀ i : grid0.Coords, EltTy.bits .f32 = 32 ∨ (Rect.block (s := S100000x896) S1000x896.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1000x7.size a ≤ S100000x7.size a
  hwx0_1 : ∀ i : grid0.Coords, EltTy.bits .f32 = 32 ∨ (Rect.block (s := S100000x7) S1000x7.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1000x128.size a ≤ S100000x128.size a
  hwx0_2 : ∀ i : grid0.Coords, EltTy.bits .f32 = 32 ∨ (Rect.block (s := S100000x128) S1000x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S896x128.size a ≤ S896x128.size a
  hwx0_3 : ∀ i : grid0.Coords, EltTy.bits .f32 = 32 ∨ (Rect.block (s := S896x128) S896x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1000x128.size a ≤ S100000x128.size a
  hwx0_4 : ∀ i : grid0.Coords, EltTy.bits .f32 = 32 ∨ (Rect.block (s := S100000x128) S1000x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x1x128.size a ≤ S100x1x128.size a
  hwx0_5 : ∀ i : grid0.Coords, EltTy.bits .f32 = 32 ∨ (Rect.block (s := S100x1x128) S1x1x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x1x128.size a ≤ S100x1x128.size a
  hwx0_6 : ∀ i : grid0.Coords, EltTy.bits .f32 = 32 ∨ (Rect.block (s := S100x1x128) S1x1x128.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x128.size a ≤ S100000x128.size a
  hwx1_5 : ∀ i : grid1.Coords, EltTy.bits .f32 = 32 ∨ (Rect.block (s := S100000x128) S5000x128.size (cc1_transform_5 i) (hinb1_5 i)).WholeWords (EltTy.packing .f32)

variable [Facts₀]

def gather_S100000x128_S700000x1_S700000x128_1_0_n_n_0_1_1128 : GatherDims S100000x128 S700000x1 S700000x128 where
  offsetDims := [1]
  collapsedSliceDims := [0]
  operandBatchingDims := []
  startIndicesBatchingDims := []
  startIndexMap := [0]
  indexVectorDim := 1
  sliceSizes := ![1, 128]
  wf := gather_S100000x128_S700000x1_S700000x128_1_0_n_n_0_1_1128_wf
def scatter_S700000x128_S700000x1_S700000x128_1_0_0_1 : ScatterDims S700000x128 S700000x1 S700000x128 where
  updateWindowDims := [1]
  insertedWindowDims := [0]
  scatterDimsToOperandDims := [0]
  indexVectorDim := 1
  wf := scatter_S700000x128_S700000x1_S700000x128_1_0_0_1_wf
def scatter_S700000_S700000x1_S700000_n_0_0_1 : ScatterDims S700000 S700000x1 S700000 where
  updateWindowDims := []
  insertedWindowDims := [0]
  scatterDimsToOperandDims := [0]
  indexVectorDim := 1
  wf := scatter_S700000_S700000x1_S700000_n_0_0_1_wf
def dot_S1000x128_S128x128_S1000x128_1_0_0_1_n_n : DotDims S1000x128 S128x128 S1000x128 where
  lhsContracting := [1]
  rhsContracting := [0]
  lhsNonContracting := [0]
  rhsNonContracting := [1]
  lhsBatch := []
  rhsBatch := []
  wf := dot_S1000x128_S128x128_S1000x128_1_0_0_1_n_n_wf

abbrev win0_0 : Pipeline.Window sig grid0 :=
  Pipeline.Window.ofSpec (Memref.whole main_v21) S1000x896.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v22) S1000x7.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg0) S1000x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S896x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v23_0) S1000x128.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v23_1) S1x1x128.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v23_2) S1x1x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v23_0) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v31) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v37) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v38) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v39) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v40) S5000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S100000x128 : Shape := ⟨2, ![100000, 128]⟩
abbrev S700000 : Shape := ⟨1, ![700000]⟩
abbrev S896x128 : Shape := ⟨2, ![896, 128]⟩
abbrev S128 : Shape := ⟨1, ![128]⟩
abbrev S_ : Shape := ⟨0, ![]⟩
abbrev S700000x1 : Shape := ⟨2, ![700000, 1]⟩
abbrev S700000x128 : Shape := ⟨2, ![700000, 128]⟩
abbrev S100000 : Shape := ⟨1, ![100000]⟩
abbrev S100000x1 : Shape := ⟨2, ![100000, 1]⟩
abbrev S100000x896 : Shape := ⟨2, ![100000, 896]⟩
abbrev S1x128 : Shape := ⟨2, ![1, 128]⟩

abbrev nBuf : Space → Nat
  | .hbm => 84
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S700000, .i32⟩
  | .hbm, ⟨2, _⟩ => ⟨S700000, .i32⟩
  | .hbm, ⟨3, _⟩ => ⟨S700000, .i32⟩
  | .hbm, ⟨4, _⟩ => ⟨S896x128, .f32⟩
  | .hbm, ⟨5, _⟩ => ⟨S128, .f32⟩
  | .hbm, ⟨6, _⟩ => ⟨S128, .f32⟩
  | .hbm, ⟨7, _⟩ => ⟨S_, .i32⟩
  | .hbm, ⟨8, _⟩ => ⟨S700000, .i32⟩
  | .hbm, ⟨9, _⟩ => ⟨S700000, .i32⟩
  | .hbm, ⟨10, _⟩ => ⟨S700000, .i32⟩
  | .hbm, ⟨11, _⟩ => ⟨S_, .i32⟩
  | .hbm, ⟨12, _⟩ => ⟨S700000, .i32⟩
  | .hbm, ⟨13, _⟩ => ⟨S700000, .i1⟩
  | .hbm, ⟨14, _⟩ => ⟨S_, .i32⟩
  | .hbm, ⟨15, _⟩ => ⟨S700000, .i32⟩
  | .hbm, ⟨16, _⟩ => ⟨S700000, .i32⟩
  | .hbm, ⟨17, _⟩ => ⟨S700000, .i32⟩
  | .hbm, ⟨18, _⟩ => ⟨S700000x1, .i32⟩
  | .hbm, ⟨19, _⟩ => ⟨S700000x128, .f32⟩
  | .hbm, ⟨20, _⟩ => ⟨S_, .f32⟩
  | .hbm, ⟨21, _⟩ => ⟨S700000x128, .f32⟩
  | .hbm, ⟨22, _⟩ => ⟨S700000x1, .i32⟩
  | .hbm, ⟨23, _⟩ => ⟨S700000x128, .f32⟩
  | .hbm, ⟨24, _⟩ => ⟨S_, .f32⟩
  | .hbm, ⟨25, _⟩ => ⟨S700000, .f32⟩
  | .hbm, ⟨26, _⟩ => ⟨S_, .f32⟩
  | .hbm, ⟨27, _⟩ => ⟨S700000, .f32⟩
  | .hbm, ⟨28, _⟩ => ⟨S700000x1, .i32⟩
  | .hbm, ⟨29, _⟩ => ⟨S700000, .f32⟩
  | .hbm, ⟨30, _⟩ => ⟨S_, .f32⟩
  | .hbm, ⟨31, _⟩ => ⟨S700000, .f32⟩
  | .hbm, ⟨32, _⟩ => ⟨S700000, .f32⟩
  | .hbm, ⟨33, _⟩ => ⟨S700000x1, .f32⟩
  | .hbm, ⟨34, _⟩ => ⟨S700000x128, .f32⟩
  | .hbm, ⟨35, _⟩ => ⟨S700000x128, .f32⟩
  | .hbm, ⟨36, _⟩ => ⟨S100000, .i32⟩
  | .hbm, ⟨37, _⟩ => ⟨S_, .i32⟩
  | .hbm, ⟨38, _⟩ => ⟨S100000, .i32⟩
  | .hbm, ⟨39, _⟩ => ⟨S100000, .i32⟩
  | .hbm, ⟨40, _⟩ => ⟨S_, .i32⟩
  | .hbm, ⟨41, _⟩ => ⟨S100000, .i32⟩
  | .hbm, ⟨42, _⟩ => ⟨S100000, .i32⟩
  | .hbm, ⟨43, _⟩ => ⟨S_, .i32⟩
  | .hbm, ⟨44, _⟩ => ⟨S100000, .i32⟩
  | .hbm, ⟨45, _⟩ => ⟨S100000, .i1⟩
  | .hbm, ⟨46, _⟩ => ⟨S_, .i32⟩
  | .hbm, ⟨47, _⟩ => ⟨S100000, .i32⟩
  | .hbm, ⟨48, _⟩ => ⟨S100000, .i32⟩
  | .hbm, ⟨49, _⟩ => ⟨S100000, .i32⟩
  | .hbm, ⟨50, _⟩ => ⟨S100000x1, .i32⟩
  | .hbm, ⟨51, _⟩ => ⟨S700000x128, .f32⟩
  | .hbm, ⟨52, _⟩ => ⟨S100000x896, .f32⟩
  | .hbm, ⟨53, _⟩ => ⟨S100000x128, .f32⟩
  | .hbm, ⟨54, _⟩ => ⟨S_, .f32⟩
  | .hbm, ⟨55, _⟩ => ⟨S128, .f32⟩
  | .hbm, ⟨56, _⟩ => ⟨S_, .f32⟩
  | .hbm, ⟨57, _⟩ => ⟨S128, .f32⟩
  | .hbm, ⟨58, _⟩ => ⟨S128, .f32⟩
  | .hbm, ⟨59, _⟩ => ⟨S1x128, .f32⟩
  | .hbm, ⟨60, _⟩ => ⟨S100000x128, .f32⟩
  | .hbm, ⟨61, _⟩ => ⟨S100000x128, .f32⟩
  | .hbm, ⟨62, _⟩ => ⟨S100000x128, .f32⟩
  | .hbm, ⟨63, _⟩ => ⟨S_, .f32⟩
  | .hbm, ⟨64, _⟩ => ⟨S128, .f32⟩
  | .hbm, ⟨65, _⟩ => ⟨S_, .f32⟩
  | .hbm, ⟨66, _⟩ => ⟨S128, .f32⟩
  | .hbm, ⟨67, _⟩ => ⟨S128, .f32⟩
  | .hbm, ⟨68, _⟩ => ⟨S1x128, .f32⟩
  | .hbm, ⟨69, _⟩ => ⟨S100000x128, .f32⟩
  | .hbm, ⟨70, _⟩ => ⟨S100000x128, .f32⟩
  | .hbm, ⟨71, _⟩ => ⟨S_, .f32⟩
  | .hbm, ⟨72, _⟩ => ⟨S128, .f32⟩
  | .hbm, ⟨73, _⟩ => ⟨S128, .f32⟩
  | .hbm, ⟨74, _⟩ => ⟨S128, .f32⟩
  | .hbm, ⟨75, _⟩ => ⟨S1x128, .f32⟩
  | .hbm, ⟨76, _⟩ => ⟨S100000x128, .f32⟩
  | .hbm, ⟨77, _⟩ => ⟨S100000x128, .f32⟩
  | .hbm, ⟨78, _⟩ => ⟨S1x128, .f32⟩
  | .hbm, ⟨79, _⟩ => ⟨S100000x128, .f32⟩
  | .hbm, ⟨80, _⟩ => ⟨S100000x128, .f32⟩
  | .hbm, ⟨81, _⟩ => ⟨S1x128, .f32⟩
  | .hbm, ⟨82, _⟩ => ⟨S100000x128, .f32⟩
  | .hbm, ⟨83, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_c_0 : Ref sig .tc := ⟨.hbm, 11, rfl⟩
abbrev main_v3 : Ref sig .tc := ⟨.hbm, 12, rfl⟩
abbrev main_v4 : Ref sig .tc := ⟨.hbm, 13, rfl⟩
abbrev main_c_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_cst : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst_2 : Ref sig .tc := ⟨.hbm, 24, rfl⟩
abbrev main_v13 : Ref sig .tc := ⟨.hbm, 25, rfl⟩
abbrev main_cst_3 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_cst_4 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_c_5 : Ref sig .tc := ⟨.hbm, 37, rfl⟩
abbrev main_v23 : Ref sig .tc := ⟨.hbm, 38, rfl⟩
abbrev main_v24 : Ref sig .tc := ⟨.hbm, 39, rfl⟩
abbrev main_c_6 : Ref sig .tc := ⟨.hbm, 40, rfl⟩
abbrev main_v25 : Ref sig .tc := ⟨.hbm, 41, rfl⟩
abbrev main_v26 : Ref sig .tc := ⟨.hbm, 42, rfl⟩
abbrev main_c_7 : Ref sig .tc := ⟨.hbm, 43, rfl⟩
abbrev main_v27 : Ref sig .tc := ⟨.hbm, 44, rfl⟩
abbrev main_v28 : Ref sig .tc := ⟨.hbm, 45, rfl⟩
abbrev main_c_8 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_cst_9 : Ref sig .tc := ⟨.hbm, 54, rfl⟩
abbrev main_v36 : Ref sig .tc := ⟨.hbm, 55, rfl⟩
abbrev main_cst_10 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_cst_11 : Ref sig .tc := ⟨.hbm, 63, rfl⟩
abbrev main_v43 : Ref sig .tc := ⟨.hbm, 64, rfl⟩
abbrev main_cst_12 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_cst_13 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩

abbrev nD : Nat := 1
abbrev τ : Topo := Topo.v7x

variable {F : FTy → Type} [FloatOps F]

class Facts₀ : Prop where
  bcast_S_S700000 : S_.BroadcastsInDim S700000 (![] : Fin 0 → Fin S700000.rank)
  bcast_S700000_S700000x1_0 : S700000.BroadcastsInDim S700000x1 (![0] : Fin 1 → Fin S700000x1.rank)
  bcast_S_S700000x128 : S_.BroadcastsInDim S700000x128 (![] : Fin 0 → Fin S700000x128.rank)
  bcast_S700000x1_S700000x128_0_1 : S700000x1.BroadcastsInDim S700000x128 (![0, 1] : Fin 2 → Fin S700000x128.rank)
  bcast_S_S100000 : S_.BroadcastsInDim S100000 (![] : Fin 0 → Fin S100000.rank)
  bcast_S100000_S100000x1_0 : S100000.BroadcastsInDim S100000x1 (![0] : Fin 1 → Fin S100000x1.rank)
  shapeCasts_S700000x128_S100000x896 : S700000x128.ShapeCasts S100000x896
  reducesTo_S100000x128_S128_d0 : S100000x128.ReducesTo [0] S128
  h_S_ : 0 < S_.numel
  bcast_S_S128 : S_.BroadcastsInDim S128 (![] : Fin 0 → Fin S128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  gather_S100000x128_S700000x1_S700000x128_1_0_n_n_0_1_1128_wf : GatherDims.WF S100000x128 S700000x1 S700000x128 [1] [0] [] [0] [] 1 ![1, 128]
  scatter_S700000x128_S700000x1_S700000x128_1_0_0_1_wf : ScatterDims.WF S700000x128 S700000x1 S700000x128 [1] [0] [0] 1
  scatter_S700000_S700000x1_S700000_n_0_0_1_wf : ScatterDims.WF S700000 S700000x1 S700000 [] [0] [0] 1
  scatter_S700000x128_S100000x1_S100000x128_1_0_0_1_wf : ScatterDims.WF S700000x128 S100000x1 S100000x128 [1] [0] [0] 1
  dot_S100000x896_S896x128_S100000x128_1_0_0_1_n_n_wf : DotDims.WF S100000x896 S896x128 S100000x128 [1] [0] [0] [1] [] []

variable [Facts₀]

def gather_S100000x128_S700000x1_S700000x128_1_0_n_n_0_1_1128 : GatherDims S100000x128 S700000x1 S700000x128 where
  offsetDims := [1]
  collapsedSliceDims := [0]
  operandBatchingDims := []
  startIndicesBatchingDims := []
  startIndexMap := [0]
  indexVectorDim := 1
  sliceSizes := ![1, 128]
  wf := gather_S100000x128_S700000x1_S700000x128_1_0_n_n_0_1_1128_wf
def scatter_S700000x128_S700000x1_S700000x128_1_0_0_1 : ScatterDims S700000x128 S700000x1 S700000x128 where
  updateWindowDims := [1]
  insertedWindowDims := [0]
  scatterDimsToOperandDims := [0]
  indexVectorDim := 1
  wf := scatter_S700000x128_S700000x1_S700000x128_1_0_0_1_wf
def scatter_S700000_S700000x1_S700000_n_0_0_1 : ScatterDims S700000 S700000x1 S700000 where
  updateWindowDims := []
  insertedWindowDims := [0]
  scatterDimsToOperandDims := [0]
  indexVectorDim := 1
  wf := scatter_S700000_S700000x1_S700000_n_0_0_1_wf
def scatter_S700000x128_S100000x1_S100000x128_1_0_0_1 : ScatterDims S700000x128 S100000x1 S100000x128 where
  updateWindowDims := [1]
  insertedWindowDims := [0]
  scatterDimsToOperandDims := [0]
  indexVectorDim := 1
  wf := scatter_S700000x128_S100000x1_S100000x128_1_0_0_1_wf
def dot_S100000x896_S896x128_S100000x128_1_0_0_1_n_n : DotDims S100000x896 S896x128 S100000x128 where
  lhsContracting := [1]
  rhsContracting := [0]
  lhsNonContracting := [0]
  rhsNonContracting := [1]
  lhsBatch := []
  rhsBatch := []
  wf := dot_S100000x896_S896x128_S100000x128_1_0_0_1_n_n_wf

class Facts : Prop extends Facts₀ where

variable [Facts]
-- ==== Proof.Spec.lean ====
/-
  The function both programs compute, written once over plain coordinates.

  A node `n` has seven feature slots of width 128. Slot `t < 6` holds the mean over the edges of type `t`
  that end in `n` of the source rows: the segment sum `sums (7 n + t)` times the reciprocal of
  `cnt1 (7 n + t)` (the edge count, raised to at least one); slot 6 holds the node's own row of `x`.
  `out n o` is the product of that 896-wide row with column `o` of the weights, written slot by slot.
  The result is `out` normalised per column by its mean and its (biased) variance over the 100000 nodes,
  scaled by `γ` and shifted by `β`. The variance is stated twice: as the mean of squares minus the
  squared mean, clamped at zero (`varOne`), and as the mean of the squared deviations (`varTwo`).
-/
import Idealize.ShloMosaic.PureOps.Ideal
import Idealize.ShloMosaic.Lib.ValueIdx

noncomputable section

open scoped BigOperators

namespace Cert.Spec

open Idealize.ShloMosaic Idealize.ShloMosaic.ValueIdx

/-- 100000, the number of nodes, as the float word both programs divide by. -/
def cN : EReal := Ideal.ofBits .f32 0x47C35000#32
/-- The variance's offset under the inverse square root. -/
def cEps : EReal := Ideal.ofBits .f32 0x3727C5AC#32
/-- One. -/
def cOne : EReal := Ideal.ofBits .f32 0x3F800000#32
/-- Zero. -/
def cZero : EReal := Ideal.ofBits .f32 0x00000000#32

/-- Segment `7 n + t`: node `n`'s slot `t`. -/
def seg (n : Fin 100000) (t : Fin 7) : Fin 700000 := ⟨7 * n.val + t.val, by omega⟩
/-- Row `128 t + c` of the weights: slot `t`'s feature `c`. -/
def wrow (t : Fin 7) (c : Fin 128) : Fin 896 := ⟨128 * t.val + c.val, by omega⟩

/-- Feature `c` of node `n`'s slot `t`. -/
def col (x : (⟨2, ![100000, 128]⟩ : Shape).Idx → EReal) (sums : (⟨2, ![700000, 128]⟩ : Shape).Idx → EReal)
    (cnt1 : (⟨1, ![700000]⟩ : Shape).Idx → EReal) (n : Fin 100000) (t : Fin 7) (c : Fin 128) : EReal :=
  if t.val < 6 then sums (ix2 (seg n t) c) * Ideal.div cOne (cnt1 (ix1 (seg n t))) else x (ix2 n c)

/-- The dense layer before normalisation: node `n`, output column `o`. -/
def out (x : (⟨2, ![100000, 128]⟩ : Shape).Idx → EReal) (sums : (⟨2, ![700000, 128]⟩ : Shape).Idx → EReal)
    (cnt1 : (⟨1, ![700000]⟩ : Shape).Idx → EReal) (w : (⟨2, ![896, 128]⟩ : Shape).Idx → EReal)
    (n : Fin 100000) (o : Fin 128) : EReal :=
  ∑ t : Fin 7, ∑ c : Fin 128, col x sums cnt1 n t c * w (ix2 (wrow t c) o)

/-- Column mean over the nodes. -/
def mean (f : Fin 100000 → Fin 128 → EReal) (o : Fin 128) : EReal := Ideal.div (∑ n : Fin 100000, f n o) cN

/-- Column variance as mean of squares minus squared mean, clamped at zero. -/
def varOne (f : Fin 100000 → Fin 128 → EReal) (o : Fin 128) : EReal :=
  max (Ideal.div (∑ n : Fin 100000, f n o * f n o) cN - mean f o * mean f o) cZero

/-- Column variance as the mean of the squared deviations from the mean. -/
def varTwo (f : Fin 100000 → Fin 128 → EReal) (o : Fin 128) : EReal :=
  Ideal.div (∑ n : Fin 100000, (f n o - mean f o) * (f n o - mean f o)) cN

/-- One normalised entry. -/
def normAt (f : Fin 100000 → Fin 128 → EReal) (v : Fin 128 → EReal)
    (γ β : (⟨1, ![128]⟩ : Shape).Idx → EReal) (n : Fin 100000) (o : Fin 128) : EReal :=
  (f n o - mean f o) * Ideal.rsqrt (v o + cEps) * γ (ix1 o) + β (ix1 o)

/-- The normalised array. -/
def norm (f : Fin 100000 → Fin 128 → EReal) (v : Fin 128 → EReal)
    (γ β : (⟨1, ![128]⟩ : Shape).Idx → EReal) : (⟨2, ![100000, 128]⟩ : Shape).Idx → EReal :=
  fun j => normAt f v γ β (j 0) (j 1)

theorem norm_ix2 (f : Fin 100000 → Fin 128 → EReal) (v : Fin 128 → EReal)
    (γ β : (⟨1, ![128]⟩ : Shape).Idx → EReal) (n : Fin 100000) (o : Fin 128) :
    norm f v γ β (ix2 n o) = normAt f v γ β n o := rfl

/-- The result with the one-pass variance. -/
def G (x : (⟨2, ![100000, 128]⟩ : Shape).Idx → EReal) (sums : (⟨2, ![700000, 128]⟩ : Shape).Idx → EReal)
    (cnt1 : (⟨1, ![700000]⟩ : Shape).Idx → EReal) (w : (⟨2, ![896, 128]⟩ : Shape).Idx → EReal)
    (γ β : (⟨1, ![128]⟩ : Shape).Idx → EReal) : (⟨2, ![100000, 128]⟩ : Shape).Idx → EReal :=
  norm (out x sums cnt1 w) (varOne (out x sums cnt1 w)) γ β

/-- The result with the two-pass variance. -/
def GTwo (x : (⟨2, ![100000, 128]⟩ : Shape).Idx → EReal) (sums : (⟨2, ![700000, 128]⟩ : Shape).Idx → EReal)
    (cnt1 : (⟨1, ![700000]⟩ : Shape).Idx → EReal) (w : (⟨2, ![896, 128]⟩ : Shape).Idx → EReal)
    (γ β : (⟨1, ![128]⟩ : Shape).Idx → EReal) : (⟨2, ![100000, 128]⟩ : Shape).Idx → EReal :=
  norm (out x sums cnt1 w) (varTwo (out x sums cnt1 w)) γ β

end Cert.Spec

end
-- ==== Proof.LibMatmulNN.lean ====
/-
  A matrix product whose left operand is contracted on its SECOND axis and whose right operand on its FIRST (an M×K
  array times a K×N array, the plain row-by-column product), accumulated into zero, read at one entry of the result on
  the extended reals: entry (i, j) is the sum over k of left (i, k) · right (k, j).  Every extent and both operand
  formats are arbitrary; the dimension record is any record with that contraction, its structural facts passed as
  hypotheses (four coordinate facts of its index maps, the contraction's rank and size), each closed by rfl or by
  unfolding at a printed record.
-/
import Idealize.ShloMosaic.PureOps.Ideal.Laws
import Idealize.ShloMosaic.Lib.ValueIdx

noncomputable section

open scoped BigOperators

namespace Cert.MatmulNN

open Idealize.ShloMosaic Idealize.ShloMosaic.ValueIdx

/-- The left operand contracted on its SECOND axis and the right on its FIRST, into a zero accumulator:
    out (i, j) = Σ k, A (i, k) · B (k, j). -/
theorem matmul_nn_apply {M K N : ℕ} {φ₁ φ₂ : FTy} (d : DotDims ⟨2, ![M, K]⟩ ⟨2, ![K, N]⟩ ⟨2, ![M, N]⟩)
    (prec : Option ContractPrecision) (hr : d.contr.rank = 1) (hs : d.contr.size ⟨0, by omega⟩ = K)
    (hl0 : ∀ j q, (d.lhsIdx j q 0).val = (j 0).val) (hl1 : ∀ j q, (d.lhsIdx j q 1).val = (q ⟨0, by omega⟩).val)
    (hr0 : ∀ j q, (d.rhsIdx j q 0).val = (q ⟨0, by omega⟩).val) (hr1 : ∀ j q, (d.rhsIdx j q 1).val = (j 1).val)
    (A : FVec Ideal ⟨2, ![M, K]⟩ φ₁) (B : FVec Ideal ⟨2, ![K, N]⟩ φ₂) (i : Fin M) (j : Fin N) :
    matmul d prec A B (constant ⟨2, ![M, N]⟩ .f32 0x00000000#32) (ix2 i j) = ∑ k : Fin K, A (ix2 i k) * B (ix2 k j) := by
  refine (Ideal.matmul_constant_zero_apply d prec A B (ix2 i j)).trans ?_
  rw [← Equiv.sum_comp (contrEquiv1 d K hr hs).symm]
  refine Finset.sum_congr rfl fun k _ => ?_
  have hk := contrEquiv1_symm_val d K hr hs k
  have el : d.lhsIdx (ix2 i j) ((contrEquiv1 d K hr hs).symm k) = ix2 i k := funext fun a => Fin.ext (by
    match a with
    | ⟨0, _⟩ => exact hl0 _ _
    | ⟨1, _⟩ => exact (hl1 _ _).trans hk)
  have er : d.rhsIdx (ix2 i j) ((contrEquiv1 d K hr hs).symm k) = ix2 k j := funext fun a => Fin.ext (by
    match a with
    | ⟨0, _⟩ => exact (hr0 _ _).trans hk
    | ⟨1, _⟩ => exact hr1 _ _)
  rw [el, er]

end Cert.MatmulNN

end
-- ==== Proof.KMat.lean ====
/-
  The matmul-and-statistics body on one block of 1000 rows, read entry by entry.

  The body takes seven products of a `[1000, 128]` slice with a `[128, 128]` slice of the weights and adds them
  in order onto zero. Slices 0 to 5 are columns `128 t … 128 t + 127` of the segment sums, each row scaled by
  column `t` of the reciprocal counts; slice 6 is the block of `x` itself. A change of float format is the
  identity on the extended reals, and a product into a zero accumulator is the plain sum over the contracted
  feature, so entry `(p, q)` of the stored block is the sum over the seven slots and the 128 features of
  `colB p t k · w (128 t + k, q)` (`blockOut`). The two statistics outputs are the column sums of that block
  and of its squares.
-/
import proofs.«151229_j77695958385178_2_alg».proof.Proof.Gen.KernelIdeal.Frame
import proofs.«151229_j77695958385178_2_alg».proof.Proof.Spec
import proofs.«151229_j77695958385178_2_alg».proof.Proof.LibMatmulNN
import Idealize.ShloMosaic.Lib.Pipeline.Value
import Idealize.ShloMosaic.Lib.ValueIdx
import Idealize.ShloMosaic.Lib.ValueLayout
import Idealize.ShloMosaic.PureOps.Ideal.Laws
set_option maxRecDepth 16384
noncomputable section
open scoped BigOperators
namespace Cert.KernelIdeal.Hand
open Idealize.ShloMosaic Idealize.ShloMosaic.TcCoe Idealize.SL.Sem Idealize.ShloMosaic.ValueIdx
open Idealize.ShloMosaic.Pipeline (Dat)
open Cert.KernelIdeal Cert.KernelIdeal.Gen

local notation "dmm" => dot_S1000x128_S128x128_S1000x128_1_0_0_1_n_n

theorem dmm_l0 (i : S1000x128.Idx) (q : (dmm).contr.Idx) : ((dmm).lhsIdx i q 0).val = (i 0).val := by
  unfold DotDims.lhsIdx
  rw [dif_neg (show ¬(0 : Fin S1000x128.rank) ∈ (dmm).lhsBatch by decide), dif_pos (show (0 : Fin S1000x128.rank) ∈ (dmm).lhsNonContracting by decide)]
  rfl
theorem dmm_l1 (i : S1000x128.Idx) (q : (dmm).contr.Idx) : ((dmm).lhsIdx i q 1).val = (q ⟨0, by decide⟩).val :=
  (dmm).lhsIdx_val_of_single rfl i q
theorem dmm_r0 (i : S1000x128.Idx) (q : (dmm).contr.Idx) : ((dmm).rhsIdx i q 0).val = (q ⟨0, by decide⟩).val :=
  (dmm).rhsIdx_val_of_single rfl i q
theorem dmm_r1 (i : S1000x128.Idx) (q : (dmm).contr.Idx) : ((dmm).rhsIdx i q 1).val = (i 1).val := by
  unfold DotDims.rhsIdx
  rw [dif_neg (show ¬(1 : Fin S128x128.rank) ∈ (dmm).rhsBatch by decide), dif_pos (show (1 : Fin S128x128.rank) ∈ (dmm).rhsNonContracting by decide)]
  rfl

/-- One slice product into a zero accumulator, at entry (p, q): the sum over the 128 contracted features. -/
theorem mm_apply {φ₁ φ₂ : FTy} (A : FVec Ideal S1000x128 φ₁) (B : FVec Ideal S128x128 φ₂) (p : Fin 1000) (q : Fin 128) :
    matmul dmm none A B (constant S1000x128 .f32 0x00000000#32) (ix2 p q) = ∑ k : Fin 128, A (ix2 p k) * B (ix2 k q) :=
  Cert.MatmulNN.matmul_nn_apply dmm none rfl rfl dmm_l0 dmm_l1 dmm_r0 dmm_r1 A B p q

/-- A `[1000, 1]` column broadcast along the columns reads, at `(p, k)`, the column at row `p`. -/
theorem bcol_apply (v : (⟨2, ![1000, 1]⟩ : Shape).Idx → EReal) (h : (⟨2, ![1000, 1]⟩ : Shape).Broadcasts ⟨2, ![1000, 128]⟩)
    (p : Fin 1000) (k : Fin 128) : broadcastTo ⟨2, ![1000, 128]⟩ v h (ix2 p k) = v (ix2 p (0 : Fin 1)) := by
  refine broadcastTo_apply v h (ix2 p k) (ix2 p (0 : Fin 1)) fun ax => ?_
  match ax with
  | ⟨0, _⟩ => rfl
  | ⟨1, _⟩ => rfl

theorem seg_apply (L : Vec Ideal S1000x128 .f32) (I : Vec Ideal S1000x1 .f32) (W : Vec Ideal S128x128 .f32)
    (h1 : S1000x128.ShapeCasts S1000x128) (h2 : S1000x1.ShapeCasts S1000x1) (h3 : S1000x1.Broadcasts S1000x128) (h4 : FTy.bf16.bits < FTy.f32.bits)
    (p : Fin 1000) (q : Fin 128) :
    matmul (F := Ideal) dmm none (truncf .bf16 (mulf (shapeCast S1000x128 L h1) (broadcastTo S1000x128 (shapeCast S1000x1 I h2) h3)) h4)
        (truncf .bf16 W h4) (constant S1000x128 .f32 0x00000000#32) (ix2 p q)
      = ∑ k : Fin 128, (L (ix2 p k) * I (ix2 p (0 : Fin 1))) * W (ix2 k q) := by
  rw [mm_apply]
  refine Finset.sum_congr rfl fun k _ => ?_
  simp only [truncf_apply, mulf_apply, shapeCast_self, bcol_apply]

theorem pay4_apply (L0 : Vec Ideal S1000x128 .f32) (I0 : Vec Ideal S1000x1 .f32) (W0 : Vec Ideal S128x128 .f32)
    (L1 : Vec Ideal S1000x128 .f32) (I1 : Vec Ideal S1000x1 .f32) (W1 : Vec Ideal S128x128 .f32)
    (L2 : Vec Ideal S1000x128 .f32) (I2 : Vec Ideal S1000x1 .f32) (W2 : Vec Ideal S128x128 .f32) (p : Fin 1000) (q : Fin 128) :
    k0_pay4 (F := Ideal) L0 I0 W0 L1 I1 W1 L2 I2 W2 (ix2 p q)
      = ((Ideal.ofBits .f32 0x00000000#32 + ∑ k : Fin 128, (L0 (ix2 p k) * I0 (ix2 p (0 : Fin 1))) * W0 (ix2 k q))
          + ∑ k : Fin 128, (L1 (ix2 p k) * I1 (ix2 p (0 : Fin 1))) * W1 (ix2 k q))
          + ∑ k : Fin 128, (L2 (ix2 p k) * I2 (ix2 p (0 : Fin 1))) * W2 (ix2 k q) := by
  unfold k0_pay4
  simp only [addf_apply, broadcast_apply]
  rw [seg_apply, seg_apply, seg_apply]
  rfl

theorem pay5_apply (v33 : FVec Ideal S1000x128 .f32)
    (L3 : Vec Ideal S1000x128 .f32) (I3 : Vec Ideal S1000x1 .f32) (W3 : Vec Ideal S128x128 .f32)
    (L4 : Vec Ideal S1000x128 .f32) (I4 : Vec Ideal S1000x1 .f32) (W4 : Vec Ideal S128x128 .f32)
    (L5 : Vec Ideal S1000x128 .f32) (I5 : Vec Ideal S1000x1 .f32) (W5 : Vec Ideal S128x128 .f32) (p : Fin 1000) (q : Fin 128) :
    k0_pay5 (F := Ideal) v33 L3 I3 W3 L4 I4 W4 L5 I5 W5 (ix2 p q)
      = ((v33 (ix2 p q) + ∑ k : Fin 128, (L3 (ix2 p k) * I3 (ix2 p (0 : Fin 1))) * W3 (ix2 k q))
          + ∑ k : Fin 128, (L4 (ix2 p k) * I4 (ix2 p (0 : Fin 1))) * W4 (ix2 k q))
          + ∑ k : Fin 128, (L5 (ix2 p k) * I5 (ix2 p (0 : Fin 1))) * W5 (ix2 k q) := by
  unfold k0_pay5
  simp only [addf_apply]
  rw [seg_apply, seg_apply, seg_apply]

theorem pay1k_apply (v66 : FVec Ideal S1000x128 .f32) (X : Vec Ideal S1000x128 .f32) (W6 : Vec Ideal S128x128 .f32) (p : Fin 1000) (q : Fin 128) :
    k0_pay1 (F := Ideal) v66 (k0_pay6 X) (k0_pay7 W6) (constant S1000x128 .f32 0x00000000#32) (ix2 p q)
      = v66 (ix2 p q) + ∑ k : Fin 128, X (ix2 p k) * W6 (ix2 k q) := by
  unfold k0_pay1 k0_pay6 k0_pay7
  simp only [addf_apply]
  rw [mm_apply]
  simp only [truncf_apply]

/-- A load of 128 columns from column `off` of a `[1000, 896]` block. -/
theorem ld_cols (x0 : Vec Ideal S1000x896 .f32) (off : Nat) (inb : ∀ a, (![0, off] : Fin 2 → Nat) a + S1000x128.size a ≤ S1000x896.size a)
    (p : Fin 1000) (k : Fin 128) (kk : Fin 896) (h : kk.val = off + k.val) :
    View.ld x0 (Rect.unit (s := S1000x896) ![0, off] S1000x128.size inb) (ix2 p k) = x0 (ix2 p kk) := by
  show x0 _ = x0 _
  congr 1
  funext a; apply Fin.ext
  match a with
  | ⟨0, _⟩ => show 0 + 1 * p.val = p.val; omega
  | ⟨1, _⟩ => show off + 1 * k.val = kk.val; omega

/-- A load of column `off` of a `[1000, 7]` block. -/
theorem ld_inv (x1 : Vec Ideal S1000x7 .f32) (off : Nat) (inb : ∀ a, (![0, off] : Fin 2 → Nat) a + S1000x1.size a ≤ S1000x7.size a)
    (p : Fin 1000) (t : Fin 7) (h : t.val = off) :
    View.ld x1 (Rect.unit (s := S1000x7) ![0, off] S1000x1.size inb) (ix2 p (0 : Fin 1)) = x1 (ix2 p t) := by
  show x1 _ = x1 _
  congr 1
  funext a; apply Fin.ext
  match a with
  | ⟨0, _⟩ => show 0 + 1 * p.val = p.val; omega
  | ⟨1, _⟩ => show off + 1 * 0 = t.val; omega

/-- A load of 128 rows from row `off` of the `[896, 128]` weights. -/
theorem ld_w (x3 : Vec Ideal S896x128 .f32) (off : Nat) (inb : ∀ a, (![off, 0] : Fin 2 → Nat) a + S128x128.size a ≤ S896x128.size a)
    (k : Fin 128) (q : Fin 128) (kk : Fin 896) (h : kk.val = off + k.val) :
    View.ld x3 (Rect.unit (s := S896x128) ![off, 0] S128x128.size inb) (ix2 k q) = x3 (ix2 kk q) := by
  show x3 _ = x3 _
  congr 1
  funext a; apply Fin.ext
  match a with
  | ⟨0, _⟩ => show off + 1 * k.val = kk.val; omega
  | ⟨1, _⟩ => show 0 + 1 * q.val = q.val; omega

/-- Feature `k` of row `p`'s slot `t` within one block of 1000 rows. -/
def colB (x0 : Vec Ideal S1000x896 .f32) (x1 : Vec Ideal S1000x7 .f32) (x2 : Vec Ideal S1000x128 .f32)
    (p : Fin 1000) (t : Fin 7) (k : Fin 128) : EReal :=
  if t.val < 6 then x0 (ix2 p (Cert.Spec.wrow t k)) * x1 (ix2 p t) else x2 (ix2 p k)

/-- One block's row `p`, column `q` of the dense layer. -/
def blockOut (x0 : Vec Ideal S1000x896 .f32) (x1 : Vec Ideal S1000x7 .f32) (x2 : Vec Ideal S1000x128 .f32) (x3 : Vec Ideal S896x128 .f32)
    (p : Fin 1000) (q : Fin 128) : EReal :=
  ∑ t : Fin 7, ∑ k : Fin 128, colB x0 x1 x2 p t k * x3 (ix2 (Cert.Spec.wrow t k) q)

theorem segsum (x0 : Vec Ideal S1000x896 .f32) (x1 : Vec Ideal S1000x7 .f32) (x2 : Vec Ideal S1000x128 .f32) (x3 : Vec Ideal S896x128 .f32)
    (t : Fin 7) (ht : t.val < 6) (oc oi ow : Nat) (hc : oc = 128 * t.val) (hi : oi = t.val) (hw : ow = 128 * t.val)
    (inbc : ∀ a, (![0, oc] : Fin 2 → Nat) a + S1000x128.size a ≤ S1000x896.size a)
    (inbi : ∀ a, (![0, oi] : Fin 2 → Nat) a + S1000x1.size a ≤ S1000x7.size a)
    (inbw : ∀ a, (![ow, 0] : Fin 2 → Nat) a + S128x128.size a ≤ S896x128.size a) (p : Fin 1000) (q : Fin 128) :
    (∑ k : Fin 128, (View.ld x0 (Rect.unit (s := S1000x896) ![0, oc] S1000x128.size inbc) (ix2 p k)
        * View.ld x1 (Rect.unit (s := S1000x7) ![0, oi] S1000x1.size inbi) (ix2 p (0 : Fin 1)))
        * View.ld x3 (Rect.unit (s := S896x128) ![ow, 0] S128x128.size inbw) (ix2 k q))
      = ∑ k : Fin 128, colB x0 x1 x2 p t k * x3 (ix2 (Cert.Spec.wrow t k) q) := by
  refine Finset.sum_congr rfl fun k _ => ?_
  rw [ld_cols x0 oc inbc p k (Cert.Spec.wrow t k) (by show 128 * t.val + k.val = oc + k.val; omega),
    ld_inv x1 oi inbi p t hi.symm, ld_w x3 ow inbw k q (Cert.Spec.wrow t k) (by show 128 * t.val + k.val = ow + k.val; omega)]
  unfold colB
  rw [if_pos ht]

theorem hz2 : (![0, 0] : Fin 2 → Nat) = fun _ => 0 := funext fun a => by fin_cases a <;> rfl
theorem hz3 : (![0, 0, 0] : Fin 3 → Nat) = fun _ => 0 := funext fun a => by fin_cases a <;> rfl

/-- The value the body stores into the pre-normalisation block. -/
abbrev payAll (x0 : Vec Ideal S1000x896 .f32) (x1 : Vec Ideal S1000x7 .f32) (x2 : Vec Ideal S1000x128 .f32) (x3 : Vec Ideal S896x128 .f32) : FVec Ideal S1000x128 .f32 :=
  k0_pay1 (F := Ideal) (k0_pay5 (k0_pay4 (View.ld x0 r0_0) (View.ld x1 r0_1) (View.ld x3 r0_2) (View.ld x0 r0_3) (View.ld x1 r0_4) (View.ld x3 r0_5) (View.ld x0 r0_6) (View.ld x1 r0_7) (View.ld x3 r0_8)) (View.ld x0 r0_9) (View.ld x1 r0_10) (View.ld x3 r0_11) (View.ld x0 r0_12) (View.ld x1 r0_13) (View.ld x3 r0_14) (View.ld x0 r0_15) (View.ld x1 r0_16) (View.ld x3 r0_17)) (k0_pay6 (View.ld x2 r0_18)) (k0_pay7 (View.ld x3 r0_19)) (constant S1000x128 .f32 0x00000000#32)

theorem payAll_apply (x0 : Vec Ideal S1000x896 .f32) (x1 : Vec Ideal S1000x7 .f32) (x2 : Vec Ideal S1000x128 .f32) (x3 : Vec Ideal S896x128 .f32)
    (p : Fin 1000) (q : Fin 128) : payAll x0 x1 x2 x3 (ix2 p q) = blockOut x0 x1 x2 x3 p q := by
  unfold payAll
  refine (pay1k_apply _ _ _ p q).trans ?_
  rw [pay5_apply, pay4_apply]
  rw [segsum x0 x1 x2 x3 0 (by decide) 0 0 0 rfl rfl rfl, segsum x0 x1 x2 x3 1 (by decide) 128 1 128 rfl rfl rfl,
    segsum x0 x1 x2 x3 2 (by decide) 256 2 256 rfl rfl rfl, segsum x0 x1 x2 x3 3 (by decide) 384 3 384 rfl rfl rfl,
    segsum x0 x1 x2 x3 4 (by decide) 512 4 512 rfl rfl rfl, segsum x0 x1 x2 x3 5 (by decide) 640 5 640 rfl rfl rfl]
  have s6 : (∑ k : Fin 128, View.ld x2 r0_18 (ix2 p k) * View.ld x3 r0_19 (ix2 k q))
      = ∑ k : Fin 128, colB x0 x1 x2 p 6 k * x3 (ix2 (Cert.Spec.wrow 6 k) q) := by
    refine Finset.sum_congr rfl fun k _ => ?_
    rw [View.ld_unit_zero (S := S1000x128) hz2, ld_w x3 768 _ k q (Cert.Spec.wrow 6 k) (by show 128 * 6 + k.val = 768 + k.val; omega)]
    unfold colB
    rw [if_neg (by decide)]
  rw [s6, Ideal.ofBits_zero_f32, zero_add]
  unfold blockOut
  rw [Fin.sum_univ_seven]

/-- A column sum over the 1000 rows of a block, kept as a `[1, 1, 128]` array. -/
theorem colsum_apply (v : FVec Ideal S1000x128 .f32) (h : S1000x128.Reduces [0] S128) (hφ : FKind.Formats .f32)
    (hacc : (0x00000000#32 : BitVec FTy.f32.bits) = FKind.add.neutral .f32 hφ) (h1 : S128.ShapeCasts S1x128) (h2 : S1x128.ShapeCasts S1x1x128)
    (q : Fin 128) :
    shapeCast S1x1x128 (shapeCast S1x128 (multiReduction (F := Ideal) .add [0] S128 v 0x00000000#32 h hφ hacc) h1) h2 (ix3 (0 : Fin 1) (0 : Fin 1) q)
      = ∑ p : Fin 1000, v (ix2 p q) := by
  rw [shapeCast_ab_1ab_apply, shapeCast_a_1a_apply]
  refine (Ideal.multiReduction_add_single v 0x00000000#32 h hφ hacc (ix1 q)).trans ?_
  refine Finset.sum_congr rfl fun p _ => congrArg v ?_
  funext a; apply Fin.ext
  match a with
  | ⟨0, _⟩ => rfl
  | ⟨1, _⟩ => rfl

theorem pay2_apply (v66 : FVec Ideal S1000x128 .f32) (v68 : FVec Ideal S1000x128 .bf16) (v70 : FVec Ideal S128x128 .bf16) (cst : FVec Ideal S1000x128 .f32) (q : Fin 128) :
    k0_pay2 (F := Ideal) v66 v68 v70 cst (ix3 (0 : Fin 1) (0 : Fin 1) q) = ∑ p : Fin 1000, k0_pay1 (F := Ideal) v66 v68 v70 cst (ix2 p q) := by
  unfold k0_pay2
  exact colsum_apply _ _ _ _ _ _ q

theorem pay3_apply (v66 : FVec Ideal S1000x128 .f32) (v68 : FVec Ideal S1000x128 .bf16) (v70 : FVec Ideal S128x128 .bf16) (cst : FVec Ideal S1000x128 .f32) (q : Fin 128) :
    k0_pay3 (F := Ideal) v66 v68 v70 cst (ix3 (0 : Fin 1) (0 : Fin 1) q)
      = ∑ p : Fin 1000, k0_pay1 (F := Ideal) v66 v68 v70 cst (ix2 p q) * k0_pay1 (F := Ideal) v66 v68 v70 cst (ix2 p q) := by
  unfold k0_pay3
  refine (colsum_apply _ _ _ _ _ _ q).trans ?_
  rfl

/-- The pre-normalisation block the body leaves, at entry `(p, q)`. -/
theorem out4_apply (x0 : Vec Ideal S1000x896 .f32) (x1 : Vec Ideal S1000x7 .f32) (x2 : Vec Ideal S1000x128 .f32) (x3 : Vec Ideal S896x128 .f32)
    (p : Fin 1000) (q : Fin 128) : out0_4 (F := Ideal) x0 x1 x2 x3 (ix2 p q) = blockOut x0 x1 x2 x3 p q := by
  unfold out0_4
  rw [View.canon_unit_zero hz2]
  exact payAll_apply x0 x1 x2 x3 p q

/-- The block's column sums. -/
theorem out5_apply (x0 : Vec Ideal S1000x896 .f32) (x1 : Vec Ideal S1000x7 .f32) (x2 : Vec Ideal S1000x128 .f32) (x3 : Vec Ideal S896x128 .f32)
    (q : Fin 128) : out0_5 (F := Ideal) x0 x1 x2 x3 (ix3 (0 : Fin 1) (0 : Fin 1) q) = ∑ p : Fin 1000, blockOut x0 x1 x2 x3 p q := by
  unfold out0_5
  rw [View.canon_unit_zero hz3]
  refine (pay2_apply _ _ _ _ q).trans ?_
  exact Finset.sum_congr rfl fun p _ => payAll_apply x0 x1 x2 x3 p q

/-- The block's column sums of squares. -/
theorem out6_apply (x0 : Vec Ideal S1000x896 .f32) (x1 : Vec Ideal S1000x7 .f32) (x2 : Vec Ideal S1000x128 .f32) (x3 : Vec Ideal S896x128 .f32)
    (q : Fin 128) : out0_6 (F := Ideal) x0 x1 x2 x3 (ix3 (0 : Fin 1) (0 : Fin 1) q)
      = ∑ p : Fin 1000, blockOut x0 x1 x2 x3 p q * blockOut x0 x1 x2 x3 p q := by
  unfold out0_6
  rw [View.canon_unit_zero hz3]
  refine (pay3_apply _ _ _ _ q).trans ?_
  exact Finset.sum_congr rfl fun p _ => by rw [show k0_pay1 (F := Ideal) _ _ _ _ (ix2 p q) = blockOut x0 x1 x2 x3 p q from payAll_apply x0 x1 x2 x3 p q]

end Cert.KernelIdeal.Hand
end
-- ==== Proof.KMatArr.lean ====
/-
  The matmul-and-statistics region, read as whole-array functions of the arrays it finds.

  The grid has 100 points; point `t` reads rows `1000 t … 1000 t + 999` of the re-laid segment sums, of the
  re-laid reciprocal counts and of `x`, and the weights whole; it writes the same rows of the dense layer and
  entry `t` of the two statistics arrays. Since a block's entry depends only on its own row, the written
  blocks are the blocks of three whole-array functions: `G4` (the dense layer `outA`), `G5` (per tile of 1000
  rows, the column sums of `outA`) and `G6` (the column sums of its squares). The blocks tile each array, so
  after the region the three arrays hold `G4`, `G5`, `G6`.
-/
import proofs.«151229_j77695958385178_2_alg».proof.Proof.Gen.KernelIdeal.Frame
import proofs.«151229_j77695958385178_2_alg».proof.Proof.Spec
import proofs.«151229_j77695958385178_2_alg».proof.Proof.LibMatmulNN
import proofs.«151229_j77695958385178_2_alg».proof.Proof.KMat
import Idealize.ShloMosaic.Lib.Pipeline.Value
import Idealize.ShloMosaic.Lib.ValueIdx
import Idealize.ShloMosaic.Lib.ValueLayout
import Idealize.ShloMosaic.PureOps.Ideal.Laws
set_option maxRecDepth 16384
noncomputable section
open scoped BigOperators
namespace Cert.KernelIdeal.Hand
open Idealize.ShloMosaic Idealize.ShloMosaic.TcCoe Idealize.SL.Sem Idealize.ShloMosaic.ValueIdx
open Idealize.ShloMosaic.Pipeline (Dat)
open Cert.KernelIdeal Cert.KernelIdeal.Gen

/-- Feature `k` of node `n`'s slot `t`, from the re-laid segment sums, the re-laid reciprocal counts and `x`. -/
def colA (A0 : S100000x896.Idx → EReal) (A1 : S100000x7.Idx → EReal) (A2 : S100000x128.Idx → EReal)
    (n : Fin 100000) (t : Fin 7) (k : Fin 128) : EReal :=
  if t.val < 6 then A0 (ix2 n (Cert.Spec.wrow t k)) * A1 (ix2 n t) else A2 (ix2 n k)

/-- The dense layer at node `n`, column `o`. -/
def outA (A0 : S100000x896.Idx → EReal) (A1 : S100000x7.Idx → EReal) (A2 : S100000x128.Idx → EReal) (A3 : S896x128.Idx → EReal)
    (n : Fin 100000) (o : Fin 128) : EReal :=
  ∑ t : Fin 7, ∑ k : Fin 128, colA A0 A1 A2 n t k * A3 (ix2 (Cert.Spec.wrow t k) o)

/-- Row `p` of tile `tile`. -/
def rowOf (tile : Fin 100) (p : Fin 1000) : Fin 100000 := ⟨1000 * tile.val + p.val, by omega⟩

/-- The dense layer as an array. -/
def G4 (A0 : S100000x896.Idx → EReal) (A1 : S100000x7.Idx → EReal) (A2 : S100000x128.Idx → EReal) (A3 : S896x128.Idx → EReal) :
    S100000x128.Idx → EReal := fun i => outA A0 A1 A2 A3 (i 0) (i 1)
/-- Per tile of 1000 rows, the column sums of the dense layer. -/
def G5 (A0 : S100000x896.Idx → EReal) (A1 : S100000x7.Idx → EReal) (A2 : S100000x128.Idx → EReal) (A3 : S896x128.Idx → EReal) :
    S100x1x128.Idx → EReal := fun i => ∑ p : Fin 1000, outA A0 A1 A2 A3 (rowOf (i 0) p) (i 2)
/-- Per tile of 1000 rows, the column sums of the dense layer's squares. -/
def G6 (A0 : S100000x896.Idx → EReal) (A1 : S100000x7.Idx → EReal) (A2 : S100000x128.Idx → EReal) (A3 : S896x128.Idx → EReal) :
    S100x1x128.Idx → EReal := fun i => ∑ p : Fin 1000, outA A0 A1 A2 A3 (rowOf (i 0) p) (i 2) * outA A0 A1 A2 A3 (rowOf (i 0) p) (i 2)

/-- The block index maps over the grid: row-tiled windows move with the point, the weights stay. -/
theorem idx_facts0 : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0
    ∧ win0_5.index t (0 : Fin 3) = t.val ∧ win0_5.index t (1 : Fin 3) = 0 ∧ win0_5.index t (2 : Fin 3) = 0
    ∧ win0_6.index t (0 : Fin 3) = t.val ∧ win0_6.index t (1 : Fin 3) = 0 ∧ win0_6.index t (2 : Fin 3) = 0 :=
  (by decide +kernel : ∀ t : Fin grid0.N, _)

theorem emb0_0 (t : Fin cfg0.N) (p : Fin 1000) (k : Fin 896) (r : Fin 100000) (hr : r.val = 1000 * t.val + p.val) :
    ((View.whole main_v21).slice ((win0 0).rect t)).emb (ix2 p k) = (ix2 r k : S100000x896.Idx) := by
  obtain ⟨a0, a1, -⟩ := idx_facts0 t
  funext a; apply Fin.ext
  match a with
  | ⟨0, _⟩ => show win0_0.index t (0 : Fin 2) * 1000 + 1 * p.val = r.val; omega
  | ⟨1, _⟩ => show win0_0.index t (1 : Fin 2) * 896 + 1 * k.val = k.val; omega
theorem emb0_1 (t : Fin cfg0.N) (p : Fin 1000) (k : Fin 7) (r : Fin 100000) (hr : r.val = 1000 * t.val + p.val) :
    ((View.whole main_v22).slice ((win0 1).rect t)).emb (ix2 p k) = (ix2 r k : S100000x7.Idx) := by
  obtain ⟨-, -, a0, a1, -⟩ := idx_facts0 t
  funext a; apply Fin.ext
  match a with
  | ⟨0, _⟩ => show win0_1.index t (0 : Fin 2) * 1000 + 1 * p.val = r.val; omega
  | ⟨1, _⟩ => show win0_1.index t (1 : Fin 2) * 7 + 1 * k.val = k.val; omega
theorem emb0_2 (t : Fin cfg0.N) (p : Fin 1000) (k : Fin 128) (r : Fin 100000) (hr : r.val = 1000 * t.val + p.val) :
    ((View.whole main_arg0).slice ((win0 2).rect t)).emb (ix2 p k) = (ix2 r k : S100000x128.Idx) := by
  obtain ⟨-, -, -, -, a0, a1, -⟩ := idx_facts0 t
  funext a; apply Fin.ext
  match a with
  | ⟨0, _⟩ => show win0_2.index t (0 : Fin 2) * 1000 + 1 * p.val = r.val; omega
  | ⟨1, _⟩ => show win0_2.index t (1 : Fin 2) * 128 + 1 * k.val = k.val; omega
theorem emb0_3 (t : Fin cfg0.N) (p : Fin 896) (k : Fin 128) :
    ((View.whole main_arg4).slice ((win0 3).rect t)).emb (ix2 p k) = (ix2 p k : S896x128.Idx) := by
  obtain ⟨-, -, -, -, -, -, a0, a1, -⟩ := idx_facts0 t
  funext a; apply Fin.ext
  match a with
  | ⟨0, _⟩ => show win0_3.index t (0 : Fin 2) * 896 + 1 * p.val = p.val; omega
  | ⟨1, _⟩ => show win0_3.index t (1 : Fin 2) * 128 + 1 * k.val = k.val; omega
theorem emb0_4 (t : Fin cfg0.N) (p : Fin 1000) (k : Fin 128) (r : Fin 100000) (hr : r.val = 1000 * t.val + p.val) :
    ((View.whole main_v23_0).slice ((win0 4).rect t)).emb (ix2 p k) = (ix2 r k : S100000x128.Idx) := by
  obtain ⟨-, -, -, -, -, -, -, -, a0, a1, -⟩ := idx_facts0 t
  funext a; apply Fin.ext
  match a with
  | ⟨0, _⟩ => show win0_4.index t (0 : Fin 2) * 1000 + 1 * p.val = r.val; omega
  | ⟨1, _⟩ => show win0_4.index t (1 : Fin 2) * 128 + 1 * k.val = k.val; omega
theorem emb0_5 (t : Fin cfg0.N) (q : Fin 128) (tile : Fin 100) (ht : tile.val = t.val) :
    ((View.whole main_v23_1).slice ((win0 5).rect t)).emb (ix3 (0 : Fin 1) (0 : Fin 1) q) = (ix3 tile (0 : Fin 1) q : S100x1x128.Idx) := by
  obtain ⟨-, -, -, -, -, -, -, -, -, -, a0, a1, a2, -⟩ := idx_facts0 t
  funext a; apply Fin.ext
  match a with
  | ⟨0, _⟩ => show win0_5.index t (0 : Fin 3) * 1 + 1 * 0 = tile.val; omega
  | ⟨1, _⟩ => show win0_5.index t (1 : Fin 3) * 1 + 1 * 0 = 0; omega
  | ⟨2, _⟩ => show win0_5.index t (2 : Fin 3) * 128 + 1 * q.val = q.val; omega
theorem emb0_6 (t : Fin cfg0.N) (q : Fin 128) (tile : Fin 100) (ht : tile.val = t.val) :
    ((View.whole main_v23_2).slice ((win0 6).rect t)).emb (ix3 (0 : Fin 1) (0 : Fin 1) q) = (ix3 tile (0 : Fin 1) q : S100x1x128.Idx) := by
  obtain ⟨-, -, -, -, -, -, -, -, -, -, -, -, -, a0, a1, a2⟩ := idx_facts0 t
  funext a; apply Fin.ext
  match a with
  | ⟨0, _⟩ => show win0_6.index t (0 : Fin 3) * 1 + 1 * 0 = tile.val; omega
  | ⟨1, _⟩ => show win0_6.index t (1 : Fin 3) * 1 + 1 * 0 = 0; omega
  | ⟨2, _⟩ => show win0_6.index t (2 : Fin 3) * 128 + 1 * q.val = q.val; omega

variable (V : (c : Dev nD) → (b : Ref sig .tc) → Buf (Elt Ideal) ((c : Thread nD τ).loc b))

theorem blk0_0 (c : Dev nD) (t : Fin cfg0.N) (p : Fin 1000) (k : Fin 896) (r : Fin 100000) (hr : r.val = 1000 * t.val + p.val) :
    (iblk0 V c 0 t (ix2 p k) : EReal) = (V c main_v21 (ix2 r k) : EReal) := by
  unfold iblk0
  rw [View.read_apply]
  show (V c main_v21 (((View.whole main_v21).slice ((win0 0).rect t)).emb (ix2 p k)) : EReal) = _
  rw [emb0_0 t p k r hr]
theorem blk0_1 (c : Dev nD) (t : Fin cfg0.N) (p : Fin 1000) (k : Fin 7) (r : Fin 100000) (hr : r.val = 1000 * t.val + p.val) :
    (iblk0 V c 1 t (ix2 p k) : EReal) = (V c main_v22 (ix2 r k) : EReal) := by
  unfold iblk0
  rw [View.read_apply]
  show (V c main_v22 (((View.whole main_v22).slice ((win0 1).rect t)).emb (ix2 p k)) : EReal) = _
  rw [emb0_1 t p k r hr]
theorem blk0_2 (c : Dev nD) (t : Fin cfg0.N) (p : Fin 1000) (k : Fin 128) (r : Fin 100000) (hr : r.val = 1000 * t.val + p.val) :
    (iblk0 V c 2 t (ix2 p k) : EReal) = (V c main_arg0 (ix2 r k) : EReal) := by
  unfold iblk0
  rw [View.read_apply]
  show (V c main_arg0 (((View.whole main_arg0).slice ((win0 2).rect t)).emb (ix2 p k)) : EReal) = _
  rw [emb0_2 t p k r hr]
theorem blk0_3 (c : Dev nD) (t : Fin cfg0.N) (p : Fin 896) (k : Fin 128) :
    (iblk0 V c 3 t (ix2 p k) : EReal) = (V c main_arg4 (ix2 p k) : EReal) := by
  unfold iblk0
  rw [View.read_apply]
  show (V c main_arg4 (((View.whole main_arg4).slice ((win0 3).rect t)).emb (ix2 p k)) : EReal) = _
  rw [emb0_3 t p k]

/-- A block's dense-layer entry is the array's at the block's row. -/
theorem blockOut_blk (c : Dev nD) (t : Fin cfg0.N) (p : Fin 1000) (q : Fin 128) (r : Fin 100000) (hr : r.val = 1000 * t.val + p.val) :
    blockOut (iblk0 V c 0 t) (iblk0 V c 1 t) (iblk0 V c 2 t) (iblk0 V c 3 t) p q
      = outA (V c main_v21) (V c main_v22) (V c main_arg0) (V c main_arg4) r q := by
  unfold blockOut outA
  refine Finset.sum_congr rfl fun tt _ => Finset.sum_congr rfl fun k _ => ?_
  unfold colB colA
  rw [blk0_3 V c t (Cert.Spec.wrow tt k) q, blk0_0 V c t p (Cert.Spec.wrow tt k) r hr, blk0_1 V c t p tt r hr, blk0_2 V c t p k r hr]

theorem G4_ix2 (A0 : S100000x896.Idx → EReal) (A1 : S100000x7.Idx → EReal) (A2 : S100000x128.Idx → EReal) (A3 : S896x128.Idx → EReal)
    (n : Fin 100000) (o : Fin 128) : G4 A0 A1 A2 A3 (ix2 n o) = outA A0 A1 A2 A3 n o := rfl
theorem G5_ix3 (A0 : S100000x896.Idx → EReal) (A1 : S100000x7.Idx → EReal) (A2 : S100000x128.Idx → EReal) (A3 : S896x128.Idx → EReal)
    (tile : Fin 100) (u : Fin 1) (o : Fin 128) : G5 A0 A1 A2 A3 (ix3 tile u o) = ∑ p : Fin 1000, outA A0 A1 A2 A3 (rowOf tile p) o := rfl
theorem G6_ix3 (A0 : S100000x896.Idx → EReal) (A1 : S100000x7.Idx → EReal) (A2 : S100000x128.Idx → EReal) (A3 : S896x128.Idx → EReal)
    (tile : Fin 100) (u : Fin 1) (o : Fin 128) :
    G6 A0 A1 A2 A3 (ix3 tile u o) = ∑ p : Fin 1000, outA A0 A1 A2 A3 (rowOf tile p) o * outA A0 A1 A2 A3 (rowOf tile p) o := rfl

/-- Point `t` writes rows `1000 t …` of the dense layer. -/
theorem flushed0_4 (c : Dev nD) (t : Fin cfg0.N) :
    (dat0 V c).flushed 4 t = ((cfg0.win 4).blk t).view.read (Elt Ideal) (G4 (V c main_v21) (V c main_v22) (V c main_arg0) (V c main_arg4)) := by
  show (cfg0.win 4).cut (grid0.coords t) ((dat0 V c).after 4 t) = _
  rw [after0_4]
  funext j
  obtain ⟨p, q, rfl⟩ : ∃ (p : Fin 1000) (q : Fin 128), j = ix2 p q := ⟨j 0, j 1, eq_ix2 j⟩
  show out0_4 (F := Ideal) (iblk0 V c 0 t) (iblk0 V c 1 t) (iblk0 V c 2 t) (iblk0 V c 3 t) (ix2 p q) = _
  refine (out4_apply _ _ _ _ p q).trans ?_
  have hp : p.val < 1000 := p.isLt
  have ht : t.val < 100 := lt_of_lt_of_eq t.isLt N_0
  rw [View.read_apply]
  show _ = G4 (V c main_v21) (V c main_v22) (V c main_arg0) (V c main_arg4) (((View.whole main_v23_0).slice ((win0 4).rect t)).emb (ix2 p q))
  rw [emb0_4 t p q ⟨1000 * t.val + p.val, by omega⟩ rfl, G4_ix2]
  exact blockOut_blk V c t p q ⟨1000 * t.val + p.val, by omega⟩ rfl

/-- Point `t` writes tile `t`'s column sums. -/
theorem flushed0_5 (c : Dev nD) (t : Fin cfg0.N) :
    (dat0 V c).flushed 5 t = ((cfg0.win 5).blk t).view.read (Elt Ideal) (G5 (V c main_v21) (V c main_v22) (V c main_arg0) (V c main_arg4)) := by
  show (cfg0.win 5).cut (grid0.coords t) ((dat0 V c).after 5 t) = _
  rw [after0_5]
  funext j
  obtain ⟨u, v, q, rfl⟩ : ∃ (u v : Fin 1) (q : Fin 128), j = ix3 u v q := ⟨j 0, j 1, j 2, eq_ix3 j⟩
  obtain rfl : u = 0 := Subsingleton.elim _ _
  obtain rfl : v = 0 := Subsingleton.elim _ _
  show out0_5 (F := Ideal) (iblk0 V c 0 t) (iblk0 V c 1 t) (iblk0 V c 2 t) (iblk0 V c 3 t) (ix3 (0 : Fin 1) (0 : Fin 1) q) = _
  refine (out5_apply _ _ _ _ q).trans ?_
  have ht : t.val < 100 := lt_of_lt_of_eq t.isLt N_0
  rw [View.read_apply]
  show _ = G5 (V c main_v21) (V c main_v22) (V c main_arg0) (V c main_arg4) (((View.whole main_v23_1).slice ((win0 5).rect t)).emb (ix3 (0 : Fin 1) (0 : Fin 1) q))
  rw [emb0_5 t q ⟨t.val, ht⟩ rfl, G5_ix3]
  exact Finset.sum_congr rfl fun p _ => blockOut_blk V c t p q (rowOf ⟨t.val, ht⟩ p) rfl

/-- Point `t` writes tile `t`'s column sums of squares. -/
theorem flushed0_6 (c : Dev nD) (t : Fin cfg0.N) :
    (dat0 V c).flushed 6 t = ((cfg0.win 6).blk t).view.read (Elt Ideal) (G6 (V c main_v21) (V c main_v22) (V c main_arg0) (V c main_arg4)) := by
  show (cfg0.win 6).cut (grid0.coords t) ((dat0 V c).after 6 t) = _
  rw [after0_6]
  funext j
  obtain ⟨u, v, q, rfl⟩ : ∃ (u v : Fin 1) (q : Fin 128), j = ix3 u v q := ⟨j 0, j 1, j 2, eq_ix3 j⟩
  obtain rfl : u = 0 := Subsingleton.elim _ _
  obtain rfl : v = 0 := Subsingleton.elim _ _
  show out0_6 (F := Ideal) (iblk0 V c 0 t) (iblk0 V c 1 t) (iblk0 V c 2 t) (iblk0 V c 3 t) (ix3 (0 : Fin 1) (0 : Fin 1) q) = _
  refine (out6_apply _ _ _ _ q).trans ?_
  have ht : t.val < 100 := lt_of_lt_of_eq t.isLt N_0
  rw [View.read_apply]
  show _ = G6 (V c main_v21) (V c main_v22) (V c main_arg0) (V c main_arg4) (((View.whole main_v23_2).slice ((win0 6).rect t)).emb (ix3 (0 : Fin 1) (0 : Fin 1) q))
  rw [emb0_6 t q ⟨t.val, ht⟩ rfl, G6_ix3]
  exact Finset.sum_congr rfl fun p _ => by rw [blockOut_blk V c t p q (rowOf ⟨t.val, ht⟩ p) rfl]

theorem mem_blk0_4 (t : Fin cfg0.N) (i : S100000x128.Idx) :
    i ∈ ((cfg0.win 4).blk t).view.set ↔ ∀ a : Fin 2, win0_4.index t a * S1000x128.size a ≤ (i a).val ∧ (i a).val < win0_4.index t a * S1000x128.size a + S1000x128.size a := by
  show i ∈ ((View.whole main_v23_0).slice (win0_4.rect t)).set ↔ _
  rw [View.set_slice_whole, Rect.mem_set_unit]
  exact Iff.rfl
theorem mem_blk0_5 (t : Fin cfg0.N) (i : S100x1x128.Idx) :
    i ∈ ((cfg0.win 5).blk t).view.set ↔ ∀ a : Fin 3, win0_5.index t a * S1x1x128.size a ≤ (i a).val ∧ (i a).val < win0_5.index t a * S1x1x128.size a + S1x1x128.size a := by
  show i ∈ ((View.whole main_v23_1).slice (win0_5.rect t)).set ↔ _
  rw [View.set_slice_whole, Rect.mem_set_unit]
  exact Iff.rfl
theorem mem_blk0_6 (t : Fin cfg0.N) (i : S100x1x128.Idx) :
    i ∈ ((cfg0.win 6).blk t).view.set ↔ ∀ a : Fin 3, win0_6.index t a * S1x1x128.size a ≤ (i a).val ∧ (i a).val < win0_6.index t a * S1x1x128.size a + S1x1x128.size a := by
  show i ∈ ((View.whole main_v23_2).slice (win0_6.rect t)).set ↔ _
  rw [View.set_slice_whole, Rect.mem_set_unit]
  exact Iff.rfl

theorem cover0_4' (i : S100000x128.Idx) : ∃ t : Fin cfg0.N, (cfg0.win 4).flush t = true ∧ i ∈ ((cfg0.win 4).blk t).view.set := by
  have hi0 : (i 0).val < 100000 := (i 0).isLt
  have hi1 : (i 1).val < 128 := (i 1).isLt
  have hN : cfg0.N = 100 := N_0
  have hlt : (i 0).val / 1000 < cfg0.N := by rw [hN]; omega
  obtain ⟨-, -, -, -, -, -, -, -, g0, g1, -⟩ := idx_facts0 ⟨(i 0).val / 1000, hlt⟩
  refine ⟨⟨(i 0).val / 1000, hlt⟩, flush0_4 _, ?_⟩
  rw [mem_blk0_4]
  intro a
  match a with
  | ⟨0, _⟩ =>
    show win0_4.index ⟨(i 0).val / 1000, hlt⟩ (0 : Fin 2) * 1000 ≤ (i 0).val ∧ (i 0).val < win0_4.index ⟨(i 0).val / 1000, hlt⟩ (0 : Fin 2) * 1000 + 1000
    rw [g0]
    show (i 0).val / 1000 * 1000 ≤ (i 0).val ∧ (i 0).val < (i 0).val / 1000 * 1000 + 1000
    omega
  | ⟨1, _⟩ =>
    show win0_4.index ⟨(i 0).val / 1000, hlt⟩ (1 : Fin 2) * 128 ≤ (i 1).val ∧ (i 1).val < win0_4.index ⟨(i 0).val / 1000, hlt⟩ (1 : Fin 2) * 128 + 128
    rw [g1]
    omega

theorem cover0_5' (i : S100x1x128.Idx) : ∃ t : Fin cfg0.N, (cfg0.win 5).flush t = true ∧ i ∈ ((cfg0.win 5).blk t).view.set := by
  have hi0 : (i 0).val < 100 := (i 0).isLt
  have hi1 : (i 1).val < 1 := (i 1).isLt
  have hi2 : (i 2).val < 128 := (i 2).isLt
  have hN : cfg0.N = 100 := N_0
  have hlt : (i 0).val < cfg0.N := by rw [hN]; omega
  obtain ⟨-, -, -, -, -, -, -, -, -, -, g0, g1, g2, -⟩ := idx_facts0 ⟨(i 0).val, hlt⟩
  refine ⟨⟨(i 0).val, hlt⟩, flush0_5 _, ?_⟩
  rw [mem_blk0_5]
  intro a
  match a with
  | ⟨0, _⟩ =>
    show win0_5.index ⟨(i 0).val, hlt⟩ (0 : Fin 3) * 1 ≤ (i 0).val ∧ (i 0).val < win0_5.index ⟨(i 0).val, hlt⟩ (0 : Fin 3) * 1 + 1
    rw [g0]
    show (i 0).val * 1 ≤ (i 0).val ∧ (i 0).val < (i 0).val * 1 + 1
    omega
  | ⟨1, _⟩ =>
    show win0_5.index ⟨(i 0).val, hlt⟩ (1 : Fin 3) * 1 ≤ (i 1).val ∧ (i 1).val < win0_5.index ⟨(i 0).val, hlt⟩ (1 : Fin 3) * 1 + 1
    rw [g1]
    omega
  | ⟨2, _⟩ =>
    show win0_5.index ⟨(i 0).val, hlt⟩ (2 : Fin 3) * 128 ≤ (i 2).val ∧ (i 2).val < win0_5.index ⟨(i 0).val, hlt⟩ (2 : Fin 3) * 128 + 128
    rw [g2]
    omega

theorem cover0_6' (i : S100x1x128.Idx) : ∃ t : Fin cfg0.N, (cfg0.win 6).flush t = true ∧ i ∈ ((cfg0.win 6).blk t).view.set := by
  have hi0 : (i 0).val < 100 := (i 0).isLt
  have hi1 : (i 1).val < 1 := (i 1).isLt
  have hi2 : (i 2).val < 128 := (i 2).isLt
  have hN : cfg0.N = 100 := N_0
  have hlt : (i 0).val < cfg0.N := by rw [hN]; omega
  obtain ⟨-, -, -, -, -, -, -, -, -, -, -, -, -, g0, g1, g2⟩ := idx_facts0 ⟨(i 0).val, hlt⟩
  refine ⟨⟨(i 0).val, hlt⟩, flush0_6 _, ?_⟩
  rw [mem_blk0_6]
  intro a
  match a with
  | ⟨0, _⟩ =>
    show win0_6.index ⟨(i 0).val, hlt⟩ (0 : Fin 3) * 1 ≤ (i 0).val ∧ (i 0).val < win0_6.index ⟨(i 0).val, hlt⟩ (0 : Fin 3) * 1 + 1
    rw [g0]
    show (i 0).val * 1 ≤ (i 0).val ∧ (i 0).val < (i 0).val * 1 + 1
    omega
  | ⟨1, _⟩ =>
    show win0_6.index ⟨(i 0).val, hlt⟩ (1 : Fin 3) * 1 ≤ (i 1).val ∧ (i 1).val < win0_6.index ⟨(i 0).val, hlt⟩ (1 : Fin 3) * 1 + 1
    rw [g1]
    omega
  | ⟨2, _⟩ =>
    show win0_6.index ⟨(i 0).val, hlt⟩ (2 : Fin 3) * 128 ≤ (i 2).val ∧ (i 2).val < win0_6.index ⟨(i 0).val, hlt⟩ (2 : Fin 3) * 128 + 128
    rw [g2]
    omega

/-- After the first region: the dense layer, its per-tile column sums and sums of squares. -/
theorem final0_4 (c : Dev nD) : (dat0 V c).arrAt 4 cfg0.N = G4 (V c main_v21) (V c main_v22) (V c main_arg0) (V c main_arg4) :=
  (dat0 V c).arrAt_eq_of_cover 4 _ (fun t _ => flushed0_4 V c t) cover0_4'
theorem final0_5 (c : Dev nD) : (dat0 V c).arrAt 5 cfg0.N = G5 (V c main_v21) (V c main_v22) (V c main_arg0) (V c main_arg4) :=
  (dat0 V c).arrAt_eq_of_cover 5 _ (fun t _ => flushed0_5 V c t) cover0_5'
theorem final0_6 (c : Dev nD) : (dat0 V c).arrAt 6 cfg0.N = G6 (V c main_v21) (V c main_v22) (V c main_arg0) (V c main_arg4) :=
  (dat0 V c).arrAt_eq_of_cover 6 _ (fun t _ => flushed0_6 V c t) cover0_6'

end Cert.KernelIdeal.Hand
end
-- ==== Proof.KHost.lean ====
/-
  The host operations between the two regions, read entry by entry.

  Between the regions the host adds the 100 per-tile column sums (and sums of squares), divides by the number of
  nodes, and forms the variance as mean of squares minus squared mean, clamped at zero; `γ` and `β` are re-laid
  as one-row arrays. Before the first region it re-lays the `[700000, 128]` segment sums as `[100000, 896]`
  (entry `(n, 128 t + k)` is entry `(7 n + t, k)`: `896 n + 128 t + k = 128 (7 n + t) + k`) and the reciprocal
  counts as `[100000, 7]`. A sum over the 100000 nodes is the sum over the 100 tiles of the sums over each tile's
  1000 rows.
-/
import proofs.«151229_j77695958385178_2_alg».proof.Proof.Gen.KernelIdeal.Frame
import proofs.«151229_j77695958385178_2_alg».proof.Proof.Spec
import proofs.«151229_j77695958385178_2_alg».proof.Proof.KMatArr
import Idealize.ShloMosaic.Lib.Pipeline.Value
import Idealize.ShloMosaic.Lib.ValueIdx
import Idealize.ShloMosaic.Lib.ValueLayout
import Idealize.ShloMosaic.Lib.IdealHost
import Idealize.ShloMosaic.Lib.StableHlo.Run
import Idealize.ShloMosaic.Lib.Tactic
import Idealize.ShloMosaic.PureOps.Ideal.Laws
set_option maxRecDepth 16384
noncomputable section
open scoped BigOperators
namespace Cert.KernelIdeal.Hand
open Idealize.ShloMosaic Idealize.ShloMosaic.TcCoe Idealize.SL.Sem Idealize.ShloMosaic.ValueIdx Idealize.ShloMosaic.StableHlo
open Idealize.ShloMosaic.Pipeline (Dat)
open Cert.KernelIdeal Cert.KernelIdeal.Gen

/-- Row `1000 tile + p` for the pair (tile, row within the tile), as a bijection. -/
def tileEquiv : Fin 100 × Fin 1000 ≃ Fin 100000 where
  toFun x := rowOf x.1 x.2
  invFun n := (⟨n.val / 1000, by have := n.isLt; omega⟩, ⟨n.val % 1000, by omega⟩)
  left_inv x := by
    obtain ⟨t, p⟩ := x
    have ht := t.isLt
    have hp := p.isLt
    refine Prod.ext (Fin.ext ?_) (Fin.ext ?_)
    · show (1000 * t.val + p.val) / 1000 = t.val
      omega
    · show (1000 * t.val + p.val) % 1000 = p.val
      omega
  right_inv n := by
    refine Fin.ext ?_
    show 1000 * (n.val / 1000) + n.val % 1000 = n.val
    omega

/-- A sum over the nodes is a sum over the tiles of sums over each tile's rows. -/
theorem sum_tiles {M : Type} [AddCommMonoid M] (g : Fin 100000 → M) :
    ∑ tile : Fin 100, ∑ p : Fin 1000, g (rowOf tile p) = ∑ n, g n := by
  rw [← Equiv.sum_comp tileEquiv g, Fintype.sum_prod_type]
  rfl

/-- The host's sum of a per-tile statistic over the 100 tiles, as a one-row array. -/
def sumTiles (s : FVec Ideal S100x1x128 .f32) : FVec Ideal S1x128 .f32 :=
  broadcastInDim S1x128 ![1] bcast_S128_S1x128_1
    (Host.reduceAdd (F := Ideal) (shapeCast S100x128 s shapeCasts_S100x1x128_S100x128) (constant (F := Ideal) S_ .f32 0x00000000#32)
      reducesTo_S100x128_S128_d0 h_S_)

theorem sumTiles_apply (s : FVec Ideal S100x1x128 .f32) (o : Fin 128) :
    sumTiles s (ix2 (0 : Fin 1) o) = ∑ tile : Fin 100, s (ix3 tile (0 : Fin 1) o) := by
  unfold sumTiles
  rw [broadcastInDim_apply _ bcast_S128_S1x128_1 _ (ix2 (0 : Fin 1) o) (ix1 o) (fun a => match a with
    | ⟨0, _⟩ => by show o.val = if (128 : Nat) = 1 then 0 else o.val; rw [if_neg (by decide)])]
  simp only [Host.reduceAdd, Ideal.hostReduceAdd_def]
  rw [Ideal.hostReduceAdd_single reducesTo_S100x128_S128_d0 (by decide)]
  show Ideal.ofBits .f32 0x00000000#32 + _ = _
  rw [Ideal.ofBits_zero_f32, zero_add]
  refine Finset.sum_congr rfl fun tile _ => ?_
  exact shapeCast_apply s shapeCasts_S100x1x128_S100x128 _ (ix3 tile (0 : Fin 1) o) (by
    rw [Shape.rowMajor_val_three, Shape.rowMajor_val_two]
    show (tile.val * 1 + 0) * 128 + o.val = tile.val * 128 + o.val
    omega)

/-- Division of a one-row array by the number of nodes. -/
def divN (v : FVec Ideal S1x128 .f32) : FVec Ideal S1x128 .f32 :=
  Host.divf (F := Ideal) v (broadcastInDim S1x128 ![] bcast_S_S1x128 (constant (F := Ideal) S_ .f32 0x47C35000#32))

theorem divN_apply (v : FVec Ideal S1x128 .f32) (o : Fin 128) :
    divN v (ix2 (0 : Fin 1) o) = Ideal.div (v (ix2 (0 : Fin 1) o)) Cert.Spec.cN := by
  unfold divN
  show FloatOps.hostDivf (v (ix2 (0 : Fin 1) o)) (broadcastInDim S1x128 ![] bcast_S_S1x128 (constant (F := Ideal) S_ .f32 0x47C35000#32) (ix2 (0 : Fin 1) o)) = _
  rw [broadcastInDim_apply _ bcast_S_S1x128 _ (ix2 (0 : Fin 1) o) ix0 (fun a => a.elim0)]
  rfl

/-- The column means. -/
def meanK (s1 : FVec Ideal S100x1x128 .f32) : FVec Ideal S1x128 .f32 := divN (sumTiles s1)

/-- The column variances: mean of squares minus squared mean, clamped at zero. -/
def varK (s1 s2 : FVec Ideal S100x1x128 .f32) : FVec Ideal S1x128 .f32 :=
  maximumf (F := Ideal) (subf (divN (sumTiles s2)) (mulf (meanK s1) (meanK s1)))
    (broadcastInDim S1x128 ![] bcast_S_S1x128 (constant (F := Ideal) S_ .f32 0x00000000#32))

theorem varK_apply (s1 s2 : FVec Ideal S100x1x128 .f32) (o : Fin 128) :
    varK s1 s2 (ix2 (0 : Fin 1) o)
      = max (divN (sumTiles s2) (ix2 (0 : Fin 1) o) - meanK s1 (ix2 (0 : Fin 1) o) * meanK s1 (ix2 (0 : Fin 1) o)) Cert.Spec.cZero := by
  unfold varK
  show max _ (broadcastInDim S1x128 ![] bcast_S_S1x128 (constant (F := Ideal) S_ .f32 0x00000000#32) (ix2 (0 : Fin 1) o)) = _
  rw [broadcastInDim_apply _ bcast_S_S1x128 _ (ix2 (0 : Fin 1) o) ix0 (fun a => a.elim0)]
  rfl

/-- A `[128]` vector as a one-row array. -/
def rowVec (g : FVec Ideal S128 .f32) : FVec Ideal S1x128 .f32 := shapeCast S1x128 g shapeCasts_S128_S1x128

theorem rowVec_apply (g : FVec Ideal S128 .f32) (o : Fin 128) : rowVec g (ix2 (0 : Fin 1) o) = g (ix1 o) :=
  shapeCast_a_1a_apply g shapeCasts_S128_S1x128 (0 : Fin 1) o

/-- The segment sums re-laid as `[100000, 896]`: entry `(n, 128 t + k)` is entry `(7 n + t, k)`. -/
theorem relaySums_apply (S : FVec Ideal S700000x128 .f32) (n : Fin 100000) (t : Fin 7) (k : Fin 128) :
    shapeCast S100000x896 S shapeCasts_S700000x128_S100000x896 (ix2 n (Cert.Spec.wrow t k)) = S (ix2 (Cert.Spec.seg n t) k) :=
  shapeCast_apply S shapeCasts_S700000x128_S100000x896 _ _ (by
    rw [Shape.rowMajor_val_two, Shape.rowMajor_val_two]
    show (7 * n.val + t.val) * 128 + k.val = n.val * 896 + (128 * t.val + k.val)
    omega)

/-- The reciprocal counts re-laid as `[100000, 7]`: entry `(n, t)` is entry `7 n + t`. -/
theorem relayInv_apply (I : FVec Ideal S700000 .f32) (n : Fin 100000) (t : Fin 7) :
    shapeCast S100000x7 I shapeCasts_S700000_S100000x7 (ix2 n t) = I (ix1 (Cert.Spec.seg n t)) :=
  shapeCast_apply I shapeCasts_S700000_S100000x7 _ _ (by
    rw [Shape.rowMajor_val_one, Shape.rowMajor_val_two]
    show 7 * n.val + t.val = n.val * 7 + t.val
    omega)

variable (m : (ℓ : Loc nD τ sig) → Buf (Elt Ideal) ℓ) (ρ : Dev nD → PrngReg)

theorem v31_eq (c : Dev nD) : V3 m ρ c main_v31 = meanK (W2 m ρ c (Proc.devRef .tc main_v23_1)) := by
  show StableHlo.after hostOps1 (W2 m ρ c) (Proc.devRef .tc main_v31) = _
  after_results
  rfl
theorem v37_eq (c : Dev nD) : V3 m ρ c main_v37 = varK (W2 m ρ c (Proc.devRef .tc main_v23_1)) (W2 m ρ c (Proc.devRef .tc main_v23_2)) := by
  show StableHlo.after hostOps1 (W2 m ρ c) (Proc.devRef .tc main_v37) = _
  after_results
  rfl
theorem v38_eq (c : Dev nD) : V3 m ρ c main_v38 = rowVec (W2 m ρ c (Proc.devRef .tc main_arg5)) := by
  show StableHlo.after hostOps1 (W2 m ρ c) (Proc.devRef .tc main_v38) = _
  after_results
  rfl
theorem v39_eq (c : Dev nD) : V3 m ρ c main_v39 = rowVec (W2 m ρ c (Proc.devRef .tc main_arg6)) := by
  show StableHlo.after hostOps1 (W2 m ρ c) (Proc.devRef .tc main_v39) = _
  after_results
  rfl
theorem v23_0_eq (c : Dev nD) : V3 m ρ c main_v23_0 = W2 m ρ c (Proc.devRef .tc main_v23_0) := by
  show StableHlo.after hostOps1 (W2 m ρ c) (Proc.devRef .tc main_v23_0) = _
  after_results

end Cert.KernelIdeal.Hand
end
-- ==== Proof.KNorm.lean ====
/-
  The normalising region, read as one function of the arrays it finds.

  The grid has 20 points; point `t` reads rows `5000 t … 5000 t + 4999` of the pre-normalisation array and the
  four one-row arrays (mean, variance, scale, shift) whole, and writes the same rows of the result. Entry `(p, q)`
  of the written block is `(a − μ_q) · rsqrt (v_q + ε) · γ_q + β_q` of the block's entry `(p, q)`: a pointwise map
  with the rows broadcast. So each written block is the block of one whole-array function (`normG`), the blocks
  tile the array (row `r` lies in block `r / 5000`), and the result array ends holding `normG`.
-/
import proofs.«151229_j77695958385178_2_alg».proof.Proof.Gen.KernelIdeal.Frame
import proofs.«151229_j77695958385178_2_alg».proof.Proof.Spec
import Idealize.ShloMosaic.Lib.Pipeline.Value
import Idealize.ShloMosaic.Lib.ValueIdx
import Idealize.ShloMosaic.Lib.ValueLayout
set_option maxRecDepth 16384
noncomputable section
namespace Cert.KernelIdeal.Hand
open Idealize.ShloMosaic Idealize.ShloMosaic.TcCoe Idealize.SL.Sem Idealize.ShloMosaic.ValueIdx
open Idealize.ShloMosaic.Pipeline (Dat)
open Cert.KernelIdeal Cert.KernelIdeal.Gen

/-- One normalised entry from its five scalars. -/
def normT (a0 a1 a2 a3 a4 : EReal) : EReal := (a0 - a1) * Ideal.rsqrt (a2 + Cert.Spec.cEps) * a3 + a4

/-- The body's stored value at entry `(p, q)`: pointwise, the one-row operands read at column `q`. -/
theorem pay1_apply (x0 : Vec Ideal S5000x128 .f32) (x1 x2 x3 x4 : Vec Ideal S1x128 .f32) (p : Fin 5000) (q : Fin 128) :
    k1_pay1 (F := Ideal) x0 x1 x2 x3 x4 (ix2 p q)
      = normT (x0 (ix2 p q)) (x1 (ix2 (0 : Fin 1) q)) (x2 (ix2 (0 : Fin 1) q)) (x3 (ix2 (0 : Fin 1) q)) (x4 (ix2 (0 : Fin 1) q)) := by
  unfold normT k1_pay1
  simp only [shapeCast_self, addf_apply, mulf_apply, subf_apply, broadcastTo_1b_ab_apply]
  rfl

theorem hzero2 : (![0, 0] : Fin 2 → Nat) = fun _ => 0 := funext fun a => by fin_cases a <;> rfl

/-- Entry `(n, o)` of the normalised array. -/
def normK (a : S100000x128.Idx → EReal) (mu va ga be : S1x128.Idx → EReal) (n : Fin 100000) (o : Fin 128) : EReal :=
  normT (a (ix2 n o)) (mu (ix2 (0 : Fin 1) o)) (va (ix2 (0 : Fin 1) o)) (ga (ix2 (0 : Fin 1) o)) (be (ix2 (0 : Fin 1) o))

/-- The normalised array. -/
def normG (a : S100000x128.Idx → EReal) (mu va ga be : S1x128.Idx → EReal) : S100000x128.Idx → EReal := fun i => normK a mu va ga be (i 0) (i 1)

theorem normG_ix2 (a : S100000x128.Idx → EReal) (mu va ga be : S1x128.Idx → EReal) (n : Fin 100000) (o : Fin 128) :
    normG a mu va ga be (ix2 n o) = normK a mu va ga be n o := rfl

/-- The block index maps over the grid: the row-tiled windows move with the point, the one-row windows stay. -/
theorem idx_facts1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

theorem emb1_0 (t : Fin cfg1.N) (p : Fin 5000) (q : Fin 128) (r : Fin 100000) (hr : r.val = 5000 * t.val + p.val) :
    ((View.whole main_v23_0).slice ((win1 0).rect t)).emb (ix2 p q) = (ix2 r q : S100000x128.Idx) := by
  obtain ⟨a0, a1, -⟩ := idx_facts1 t
  funext a; apply Fin.ext
  match a with
  | ⟨0, _⟩ => show win1_0.index t (0 : Fin 2) * 5000 + 1 * p.val = r.val; omega
  | ⟨1, _⟩ => show win1_0.index t (1 : Fin 2) * 128 + 1 * q.val = q.val; omega

theorem emb1_5 (t : Fin cfg1.N) (p : Fin 5000) (q : Fin 128) (r : Fin 100000) (hr : r.val = 5000 * t.val + p.val) :
    ((View.whole main_v40).slice ((win1 5).rect t)).emb (ix2 p q) = (ix2 r q : S100000x128.Idx) := by
  obtain ⟨a0, a1, b0, b1, c0, c1, d0, d1, f0, f1, g0, g1⟩ := idx_facts1 t
  funext a; apply Fin.ext
  match a with
  | ⟨0, _⟩ => show win1_5.index t (0 : Fin 2) * 5000 + 1 * p.val = r.val; omega
  | ⟨1, _⟩ => show win1_5.index t (1 : Fin 2) * 128 + 1 * q.val = q.val; omega

variable (V : (c : Dev nD) → (b : Ref sig .tc) → Buf (Elt Ideal) ((c : Thread nD τ).loc b))

theorem blk1_0 (c : Dev nD) (t : Fin cfg1.N) (p : Fin 5000) (q : Fin 128) (r : Fin 100000) (hr : r.val = 5000 * t.val + p.val) :
    (iblk1 V c 0 t (ix2 p q) : EReal) = (V c main_v23_0 (ix2 r q) : EReal) := by
  unfold iblk1
  rw [View.read_apply]
  show (V c main_v23_0 (((View.whole main_v23_0).slice ((win1 0).rect t)).emb (ix2 p q)) : EReal) = _
  rw [emb1_0 t p q r hr]

theorem emb1_1 (t : Fin cfg1.N) (q : Fin 128) :
    ((View.whole main_v31).slice ((win1 1).rect t)).emb (ix2 (0 : Fin 1) q) = (ix2 (0 : Fin 1) q : S1x128.Idx) := by
  obtain ⟨a0, a1, b0, b1, c0, c1, d0, d1, f0, f1, g0, g1⟩ := idx_facts1 t
  funext a; apply Fin.ext
  match a with
  | ⟨0, _⟩ => show win1_1.index t (0 : Fin 2) * 1 + 1 * 0 = 0; omega
  | ⟨1, _⟩ => show win1_1.index t (1 : Fin 2) * 128 + 1 * q.val = q.val; omega

theorem blk1_1 (c : Dev nD) (t : Fin cfg1.N) (q : Fin 128) :
    (iblk1 V c 1 t (ix2 (0 : Fin 1) q) : EReal) = (V c main_v31 (ix2 (0 : Fin 1) q) : EReal) := by
  unfold iblk1
  rw [View.read_apply]
  show (V c main_v31 (((View.whole main_v31).slice ((win1 1).rect t)).emb (ix2 (0 : Fin 1) q)) : EReal) = _
  rw [emb1_1 t q]

theorem emb1_2 (t : Fin cfg1.N) (q : Fin 128) :
    ((View.whole main_v37).slice ((win1 2).rect t)).emb (ix2 (0 : Fin 1) q) = (ix2 (0 : Fin 1) q : S1x128.Idx) := by
  obtain ⟨a0, a1, b0, b1, c0, c1, d0, d1, f0, f1, g0, g1⟩ := idx_facts1 t
  funext a; apply Fin.ext
  match a with
  | ⟨0, _⟩ => show win1_2.index t (0 : Fin 2) * 1 + 1 * 0 = 0; omega
  | ⟨1, _⟩ => show win1_2.index t (1 : Fin 2) * 128 + 1 * q.val = q.val; omega

theorem blk1_2 (c : Dev nD) (t : Fin cfg1.N) (q : Fin 128) :
    (iblk1 V c 2 t (ix2 (0 : Fin 1) q) : EReal) = (V c main_v37 (ix2 (0 : Fin 1) q) : EReal) := by
  unfold iblk1
  rw [View.read_apply]
  show (V c main_v37 (((View.whole main_v37).slice ((win1 2).rect t)).emb (ix2 (0 : Fin 1) q)) : EReal) = _
  rw [emb1_2 t q]

theorem emb1_3 (t : Fin cfg1.N) (q : Fin 128) :
    ((View.whole main_v38).slice ((win1 3).rect t)).emb (ix2 (0 : Fin 1) q) = (ix2 (0 : Fin 1) q : S1x128.Idx) := by
  obtain ⟨a0, a1, b0, b1, c0, c1, d0, d1, f0, f1, g0, g1⟩ := idx_facts1 t
  funext a; apply Fin.ext
  match a with
  | ⟨0, _⟩ => show win1_3.index t (0 : Fin 2) * 1 + 1 * 0 = 0; omega
  | ⟨1, _⟩ => show win1_3.index t (1 : Fin 2) * 128 + 1 * q.val = q.val; omega

theorem blk1_3 (c : Dev nD) (t : Fin cfg1.N) (q : Fin 128) :
    (iblk1 V c 3 t (ix2 (0 : Fin 1) q) : EReal) = (V c main_v38 (ix2 (0 : Fin 1) q) : EReal) := by
  unfold iblk1
  rw [View.read_apply]
  show (V c main_v38 (((View.whole main_v38).slice ((win1 3).rect t)).emb (ix2 (0 : Fin 1) q)) : EReal) = _
  rw [emb1_3 t q]

theorem emb1_4 (t : Fin cfg1.N) (q : Fin 128) :
    ((View.whole main_v39).slice ((win1 4).rect t)).emb (ix2 (0 : Fin 1) q) = (ix2 (0 : Fin 1) q : S1x128.Idx) := by
  obtain ⟨a0, a1, b0, b1, c0, c1, d0, d1, f0, f1, g0, g1⟩ := idx_facts1 t
  funext a; apply Fin.ext
  match a with
  | ⟨0, _⟩ => show win1_4.index t (0 : Fin 2) * 1 + 1 * 0 = 0; omega
  | ⟨1, _⟩ => show win1_4.index t (1 : Fin 2) * 128 + 1 * q.val = q.val; omega

theorem blk1_4 (c : Dev nD) (t : Fin cfg1.N) (q : Fin 128) :
    (iblk1 V c 4 t (ix2 (0 : Fin 1) q) : EReal) = (V c main_v39 (ix2 (0 : Fin 1) q) : EReal) := by
  unfold iblk1
  rw [View.read_apply]
  show (V c main_v39 (((View.whole main_v39).slice ((win1 4).rect t)).emb (ix2 (0 : Fin 1) q)) : EReal) = _
  rw [emb1_4 t q]

/-- What point `t` writes back is block `t` of `normG` of the arrays the region finds. -/
theorem flushed1 (c : Dev nD) (t : Fin cfg1.N) :
    (dat1 V c).flushed 5 t = ((cfg1.win 5).blk t).view.read (Elt Ideal) (normG (V c main_v23_0) (V c main_v31) (V c main_v37) (V c main_v38) (V c main_v39)) := by
  show (cfg1.win 5).cut (grid1.coords t) ((dat1 V c).after 5 t) = _
  rw [after1_5]
  unfold out1_5
  rw [View.canon_unit_zero hzero2]
  simp only [View.ld_unit_zero (S := S5000x128) hzero2, View.ld_unit_zero (S := S1x128) hzero2]
  funext j
  obtain ⟨p, q, rfl⟩ : ∃ (p : Fin 5000) (q : Fin 128), j = ix2 p q := ⟨j 0, j 1, eq_ix2 j⟩
  show k1_pay1 (F := Ideal) (iblk1 V c 0 t) (iblk1 V c 1 t) (iblk1 V c 2 t) (iblk1 V c 3 t) (iblk1 V c 4 t) (ix2 p q) = _
  refine (pay1_apply _ _ _ _ _ p q).trans ?_
  have hp : p.val < 5000 := p.isLt
  have ht : t.val < 20 := lt_of_lt_of_eq t.isLt N_1
  rw [View.read_apply]
  show _ = normG (V c main_v23_0) (V c main_v31) (V c main_v37) (V c main_v38) (V c main_v39) (((View.whole main_v40).slice ((win1 5).rect t)).emb (ix2 p q))
  rw [emb1_5 t p q ⟨5000 * t.val + p.val, by omega⟩ rfl, normG_ix2]
  unfold normK
  rw [blk1_0 V c t p q ⟨5000 * t.val + p.val, by omega⟩ rfl, blk1_1 V c t q, blk1_2 V c t q, blk1_3 V c t q, blk1_4 V c t q]

/-- An index lies in point `t`'s block of the result iff each coordinate lies in the block's range. -/
theorem mem_blk1_5 (t : Fin cfg1.N) (i : S100000x128.Idx) :
    i ∈ ((cfg1.win 5).blk t).view.set ↔ ∀ a : Fin 2, win1_5.index t a * S5000x128.size a ≤ (i a).val ∧ (i a).val < win1_5.index t a * S5000x128.size a + S5000x128.size a := by
  show i ∈ ((View.whole main_v40).slice (win1_5.rect t)).set ↔ _
  rw [View.set_slice_whole, Rect.mem_set_unit]
  exact Iff.rfl

/-- Row `r` of the result lies in the block of point `r / 5000`. -/
theorem cover1 (i : S100000x128.Idx) : ∃ t : Fin cfg1.N, (cfg1.win 5).flush t = true ∧ i ∈ ((cfg1.win 5).blk t).view.set := by
  have hi0 : (i 0).val < 100000 := (i 0).isLt
  have hi1 : (i 1).val < 128 := (i 1).isLt
  have hN : cfg1.N = 20 := N_1
  have hlt : (i 0).val / 5000 < cfg1.N := by rw [hN]; omega
  obtain ⟨-, -, -, -, -, -, -, -, -, -, g0, g1⟩ := idx_facts1 ⟨(i 0).val / 5000, hlt⟩
  refine ⟨⟨(i 0).val / 5000, hlt⟩, flush1_5 _, ?_⟩
  rw [mem_blk1_5]
  intro a
  match a with
  | ⟨0, _⟩ =>
    show win1_5.index ⟨(i 0).val / 5000, hlt⟩ (0 : Fin 2) * 5000 ≤ (i 0).val ∧ (i 0).val < win1_5.index ⟨(i 0).val / 5000, hlt⟩ (0 : Fin 2) * 5000 + 5000
    rw [g0]
    show (i 0).val / 5000 * 5000 ≤ (i 0).val ∧ (i 0).val < (i 0).val / 5000 * 5000 + 5000
    omega
  | ⟨1, _⟩ =>
    show win1_5.index ⟨(i 0).val / 5000, hlt⟩ (1 : Fin 2) * 128 ≤ (i 1).val ∧ (i 1).val < win1_5.index ⟨(i 0).val / 5000, hlt⟩ (1 : Fin 2) * 128 + 128
    rw [g1]
    omega

/-- The result array after the region: `normG` of the five arrays the region finds. -/
theorem final1 (c : Dev nD) :
    (dat1 V c).arrAt 5 cfg1.N = normG (V c main_v23_0) (V c main_v31) (V c main_v37) (V c main_v38) (V c main_v39) :=
  (dat1 V c).arrAt_eq_of_cover 5 _ (fun t _ => flushed1 V c t) cover1

end Cert.KernelIdeal.Hand
end
-- ==== Proof.KernelRun.lean ====
/-
  The idealized kernel's run with its result named.

  The program is four segments: host operations, the matmul-and-statistics region, host operations, the
  normalising region. Every weakly fair execution terminates, and the thread's unscoped buffers end at the
  last boundary's contents `W4`; read at the result buffer this names the result, and read at the argument
  buffers it gives them back unchanged.
-/
import proofs.«151229_j77695958385178_2_alg».proof.Proof.Gen.KernelIdeal.Frame

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run: the result buffer ends at the last boundary's contents, the arguments as launched. -/
theorem run_named : θ_run defs (onTc (τ := τ) (main (F := F))) ⟨m, fun _ => 0, ρ⟩ (fun r => ∀ c : Dev nD,
      r.2.mem ((c.tc : Thread nD τ).loc main_v40) = W4 m ρ c (Proc.devRef .tc main_v40)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v40 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c)⟩)

end Cert.KernelIdeal.Hand

end
-- ==== Proof.KValue.lean ====
/-
  The idealized kernel's result as the specification's function of its arguments.

  Reading the run backwards: the result array is what the normalising region leaves, `normG` of the dense
  layer, the means, the variances and the re-laid `γ`, `β`; the dense layer is what the first region leaves,
  `outA` of the re-laid segment sums and reciprocal counts, `x` and the weights, which is the specification's
  `out`; the means and variances are the host's sums over the 100 tiles of the per-tile column sums, which
  regroup to sums over all 100000 nodes. So entry `(n, o)` of the result is
  `(out n o − mean o) · rsqrt (max (meansq o − mean o · mean o) 0 + ε) · γ o + β o`.
-/
import proofs.«151229_j77695958385178_2_alg».proof.Proof.KHost
import proofs.«151229_j77695958385178_2_alg».proof.Proof.KNorm
import proofs.«151229_j77695958385178_2_alg».proof.Proof.KernelRun
import proofs.«151229_j77695958385178_2_alg».proof.Proof.Gen.ReferenceIdeal.Read
set_option maxRecDepth 16384
noncomputable section
open scoped BigOperators
namespace Cert.KernelIdeal.Hand
open Idealize.ShloMosaic Idealize.ShloMosaic.TcCoe Idealize.SL.Sem Idealize.ShloMosaic.ValueIdx Idealize.ShloMosaic.StableHlo
open Idealize.ShloMosaic.Pipeline (Dat)
open Cert.KernelIdeal Cert.KernelIdeal.Gen

variable (m : (ℓ : Loc nD τ sig) → Buf (Elt Ideal) ℓ) (ρ : Dev nD → PrngReg)

/-- The segment sums of the launch memory's arguments. -/
abbrev sumsOf (c : Dev nD) : (⟨2, ![700000, 128]⟩ : Shape).Idx → EReal :=
  Cert.ReferenceIdeal.Read.val_main_v12 (F := Ideal) (m ((c : Thread nD τ).loc main_arg0)) (m ((c : Thread nD τ).loc main_arg1))
    (m ((c : Thread nD τ).loc main_arg2)) (m ((c : Thread nD τ).loc main_arg3))
/-- The edge counts raised to at least one. -/
abbrev cnt1Of (c : Dev nD) : (⟨1, ![700000]⟩ : Shape).Idx → EReal :=
  Cert.ReferenceIdeal.Read.val_main_v18 (F := Ideal) (m ((c : Thread nD τ).loc main_arg1)) (m ((c : Thread nD τ).loc main_arg3))

theorem v1_arg0 (c : Dev nD) : V1 m ρ c main_arg0 = m ((c : Thread nD τ).loc main_arg0) := by
  show StableHlo.after hostOps0 (W0 m ρ c) (Proc.devRef .tc main_arg0) = _
  after_results
  try rfl
theorem v1_arg4 (c : Dev nD) : V1 m ρ c main_arg4 = m ((c : Thread nD τ).loc main_arg4) := by
  show StableHlo.after hostOps0 (W0 m ρ c) (Proc.devRef .tc main_arg4) = _
  after_results
  try rfl
set_option maxHeartbeats 4000000 in
theorem v1_v21 (c : Dev nD) : V1 m ρ c main_v21 = shapeCast S100000x896 (sumsOf m c) shapeCasts_S700000x128_S100000x896 := by
  show StableHlo.after hostOps0 (W0 m ρ c) (Proc.devRef .tc main_v21) = _
  after_results
  try rfl
set_option maxHeartbeats 4000000 in
theorem v1_v22 (c : Dev nD) : V1 m ρ c main_v22 = shapeCast S100000x7
    (Host.divf (F := Ideal) (broadcastInDim S700000 ![] bcast_S_S700000 (constant (F := Ideal) S_ .f32 0x3F800000#32)) (cnt1Of m c)) shapeCasts_S700000_S100000x7 := by
  show StableHlo.after hostOps0 (W0 m ρ c) (Proc.devRef .tc main_v22) = _
  after_results
  try rfl

/-- The dense layer of the re-laid arrays is the specification's dense layer. -/
theorem outA_eq (x : S100000x128.Idx → EReal) (sums : S700000x128.Idx → EReal) (cnt1 : S700000.Idx → EReal) (w : S896x128.Idx → EReal)
    (n : Fin 100000) (o : Fin 128) :
    outA (shapeCast S100000x896 sums shapeCasts_S700000x128_S100000x896)
        (shapeCast S100000x7 (Host.divf (F := Ideal) (broadcastInDim S700000 ![] bcast_S_S700000 (constant (F := Ideal) S_ .f32 0x3F800000#32)) cnt1) shapeCasts_S700000_S100000x7)
        x w n o
      = Cert.Spec.out x sums cnt1 w n o := by
  unfold outA Cert.Spec.out
  refine Finset.sum_congr rfl fun t _ => Finset.sum_congr rfl fun k _ => ?_
  unfold colA Cert.Spec.col
  by_cases h : t.val < 6
  · rw [if_pos h, if_pos h, relaySums_apply, relayInv_apply]
    show sums _ * FloatOps.hostDivf (broadcastInDim S700000 ![] bcast_S_S700000 (constant (F := Ideal) S_ .f32 0x3F800000#32) (ix1 (Cert.Spec.seg n t))) (cnt1 (ix1 (Cert.Spec.seg n t))) * _ = _
    rw [broadcastInDim_apply _ bcast_S_S700000 _ (ix1 (Cert.Spec.seg n t)) ix0 (fun a => a.elim0)]
    rfl
  · rw [if_neg h, if_neg h]

theorem w2_v23_0 (c : Dev nD) : W2 m ρ c (Proc.devRef .tc main_v23_0)
    = G4 (V1 m ρ c main_v21) (V1 m ρ c main_v22) (V1 m ρ c main_arg0) (V1 m ρ c main_arg4) :=
  (W2_arr m ρ c 4).trans (final0_4 (V1 m ρ) c)
theorem w2_v23_1 (c : Dev nD) : W2 m ρ c (Proc.devRef .tc main_v23_1)
    = G5 (V1 m ρ c main_v21) (V1 m ρ c main_v22) (V1 m ρ c main_arg0) (V1 m ρ c main_arg4) :=
  (W2_arr m ρ c 5).trans (final0_5 (V1 m ρ) c)
theorem w2_v23_2 (c : Dev nD) : W2 m ρ c (Proc.devRef .tc main_v23_2)
    = G6 (V1 m ρ c main_v21) (V1 m ρ c main_v22) (V1 m ρ c main_arg0) (V1 m ρ c main_arg4) :=
  (W2_arr m ρ c 6).trans (final0_6 (V1 m ρ) c)
theorem w2_arg5 (c : Dev nD) : W2 m ρ c (Proc.devRef .tc main_arg5) = m ((c : Thread nD τ).loc main_arg5) := by
  rw [W2_of_ne m ρ c main_arg5 (by decide)]
  show StableHlo.after hostOps0 (W0 m ρ c) (Proc.devRef .tc main_arg5) = _
  after_results
  try rfl
theorem w2_arg6 (c : Dev nD) : W2 m ρ c (Proc.devRef .tc main_arg6) = m ((c : Thread nD τ).loc main_arg6) := by
  rw [W2_of_ne m ρ c main_arg6 (by decide)]
  show StableHlo.after hostOps0 (W0 m ρ c) (Proc.devRef .tc main_arg6) = _
  after_results
  try rfl

/-- THE KERNEL'S VALUE: the result buffer's last contents are the specification's function of the launch
    memory's arguments. -/
theorem kernel_value (c : Dev nD) :
    W4 m ρ c (Proc.devRef .tc main_v40)
      = Cert.Spec.G (m ((c : Thread nD τ).loc main_arg0)) (sumsOf m c) (cnt1Of m c) (m ((c : Thread nD τ).loc main_arg4))
          (m ((c : Thread nD τ).loc main_arg5)) (m ((c : Thread nD τ).loc main_arg6)) := by
  refine ((W4_arr m ρ c 5).trans (final1 (V3 m ρ) c)).trans ?_
  funext j
  obtain ⟨n, o, rfl⟩ : ∃ (n : Fin 100000) (o : Fin 128), j = ix2 n o := ⟨j 0, j 1, eq_ix2 j⟩
  rw [normG_ix2]
  unfold normK
  rw [v23_0_eq, w2_v23_0, G4_ix2, v31_eq, v37_eq, v38_eq, v39_eq, w2_arg5, w2_arg6, w2_v23_1, w2_v23_2,
    rowVec_apply, rowVec_apply, varK_apply]
  unfold meanK
  rw [divN_apply, divN_apply, sumTiles_apply, sumTiles_apply]
  simp only [G5_ix3, G6_ix3]
  rw [v1_v21 m ρ c, v1_v22 m ρ c, v1_arg0 m ρ c, v1_arg4 m ρ c]
  have hO : ∀ n' : Fin 100000,
      outA (shapeCast S100000x896 (sumsOf m c) shapeCasts_S700000x128_S100000x896)
          (shapeCast S100000x7 (Host.divf (F := Ideal) (broadcastInDim S700000 ![] bcast_S_S700000 (constant (F := Ideal) S_ .f32 0x3F800000#32)) (cnt1Of m c)) shapeCasts_S700000_S100000x7)
          (m ((c : Thread nD τ).loc main_arg0)) (m ((c : Thread nD τ).loc main_arg4)) n' o
        = Cert.Spec.out (m ((c : Thread nD τ).loc main_arg0)) (sumsOf m c) (cnt1Of m c) (m ((c : Thread nD τ).loc main_arg4)) n' o :=
    fun n' => outA_eq _ _ _ _ n' o
  simp only [hO]
  rw [sum_tiles (fun n' => Cert.Spec.out (m ((c : Thread nD τ).loc main_arg0)) (sumsOf m c) (cnt1Of m c) (m ((c : Thread nD τ).loc main_arg4)) n' o),
    sum_tiles (fun n' => Cert.Spec.out (m ((c : Thread nD τ).loc main_arg0)) (sumsOf m c) (cnt1Of m c) (m ((c : Thread nD τ).loc main_arg4)) n' o
      * Cert.Spec.out (m ((c : Thread nD τ).loc main_arg0)) (sumsOf m c) (cnt1Of m c) (m ((c : Thread nD τ).loc main_arg4)) n' o)]
  unfold Cert.Spec.G
  rw [Cert.Spec.norm_ix2]
  unfold Cert.Spec.normAt Cert.Spec.varOne Cert.Spec.mean normT
  rfl

end Cert.KernelIdeal.Hand
end
-- ==== Proof.RefTail.lean ====
/-
  The reference after its dense layer: the column mean, the two-pass variance and the normalisation, read entry
  by entry.  Writing `f n o` for the dense layer's entry at node `n`, column `o`, the program computes
  `mean o = (0 + ∑ n, f n o) / N`, `var o = (0 + ∑ n, (f n o - mean o)²) / N` and returns
  `(f n o - mean o) * rsqrt (var o + ε) * γ o + β o`; the broadcasts only move the column index around.
-/
import proofs.«151229_j77695958385178_2_alg».proof.Proof.Spec
import proofs.«151229_j77695958385178_2_alg».proof.Proof.Gen.ReferenceIdeal.Read

noncomputable section

open scoped BigOperators

namespace Cert.RefValue

open Cert.ReferenceIdeal Cert.ReferenceIdeal.Read Idealize.ShloMosaic Idealize.ShloMosaic.ValueIdx

variable (x0 : (⟨S100000x128, .f32⟩ : BufTy).Contents (Elt Ideal)) (x1 x2 x3 : (⟨S700000, .i32⟩ : BufTy).Contents (Elt Ideal))
  (x4 : (⟨S896x128, .f32⟩ : BufTy).Contents (Elt Ideal)) (x5 x6 : (⟨S128, .f32⟩ : BufTy).Contents (Elt Ideal))

/-- The reference's dense layer by coordinates: node `n`, output column `o`. -/
def oref : Fin 100000 → Fin 128 → EReal :=
  fun n o => val_main_v35 (F := Ideal) x0 x1 x2 x3 x4 (ix2 n o)

/-- A column reduction reads row `k` of column `o`. -/
theorem idx36 (o : Fin 128) (k : Fin 100000) : idx_main_v36 (ix1 o) k = ix2 k o := by
  funext a
  match a with
  | ⟨0, _⟩ => rfl
  | ⟨1, _⟩ => rfl

/-- The column mean the reference computes is the mean of the dense layer's column. -/
theorem mean_ref (o : Fin 128) :
    val_main_v38 (F := Ideal) x0 x1 x2 x3 x4 (ix1 o) = Cert.Spec.mean (oref x0 x1 x2 x3 x4) o := by
  rw [val_main_v38_apply, val_main_v36_apply, val_main_v37_apply, val_main_cst_10_apply, val_main_cst_9_apply]
  simp only [Ideal.hostDivf_def, Ideal.ofBits_def, Ideal.ofBits_zero_f32, zero_add]
  unfold Cert.Spec.mean oref Cert.Spec.cN
  simp only [idx36]

/-- The second column reduction reads the same way. -/
theorem idx43 (o : Fin 128) (k : Fin 100000) : idx_main_v43 (ix1 o) k = ix2 k o := by
  funext a
  match a with
  | ⟨0, _⟩ => rfl
  | ⟨1, _⟩ => rfl

/-- A row vector broadcast over the nodes is read at the column. -/
theorem idx3940 (n : Fin 100000) (o : Fin 128) : idx_main_v39 (idx_main_v40 (ix2 n o)) = ix1 o := by
  funext a
  match a with
  | ⟨0, _⟩ => rfl

theorem idx4647 (n : Fin 100000) (o : Fin 128) : idx_main_v46 (idx_main_v47 (ix2 n o)) = ix1 o := by
  funext a
  match a with
  | ⟨0, _⟩ => rfl

theorem idx5253 (n : Fin 100000) (o : Fin 128) : idx_main_v52 (idx_main_v53 (ix2 n o)) = ix1 o := by
  funext a
  match a with
  | ⟨0, _⟩ => rfl

theorem idx5556 (n : Fin 100000) (o : Fin 128) : idx_main_v55 (idx_main_v56 (ix2 n o)) = ix1 o := by
  funext a
  match a with
  | ⟨0, _⟩ => rfl

theorem idx5859 (n : Fin 100000) (o : Fin 128) : idx_main_v58 (idx_main_v59 (ix2 n o)) = ix1 o := by
  funext a
  match a with
  | ⟨0, _⟩ => rfl

/-- The deviation from the column mean. -/
theorem dev_ref (n : Fin 100000) (o : Fin 128) :
    val_main_v41 (F := Ideal) x0 x1 x2 x3 x4 (ix2 n o)
      = oref x0 x1 x2 x3 x4 n o - Cert.Spec.mean (oref x0 x1 x2 x3 x4) o := by
  rw [val_main_v41_apply, val_main_v40_apply, val_main_v39_apply, idx3940, mean_ref]
  rfl

/-- One squared deviation. -/
theorem sq_ref (n : Fin 100000) (o : Fin 128) :
    val_main_v42 (F := Ideal) x0 x1 x2 x3 x4 (ix2 n o)
      = (oref x0 x1 x2 x3 x4 n o - Cert.Spec.mean (oref x0 x1 x2 x3 x4) o)
        * (oref x0 x1 x2 x3 x4 n o - Cert.Spec.mean (oref x0 x1 x2 x3 x4) o) := by
  rw [val_main_v42_apply, dev_ref]
  rfl

/-- The variance the reference computes is the mean of the squared deviations. -/
theorem var_ref (o : Fin 128) :
    val_main_v45 (F := Ideal) x0 x1 x2 x3 x4 (ix1 o) = Cert.Spec.varTwo (oref x0 x1 x2 x3 x4) o := by
  rw [Cert.Spec.varTwo, Cert.Spec.cN]
  rw [val_main_v45_apply, val_main_v43_apply, val_main_v44_apply, val_main_cst_12_apply, val_main_cst_11_apply]
  simp only [Ideal.hostDivf_def, Ideal.ofBits_def, Ideal.ofBits_zero_f32, zero_add, idx43, sq_ref]

/-- THE TAIL: the reference's result is the normalisation of its dense layer with the two-pass variance. -/
theorem tail_ref (n : Fin 100000) (o : Fin 128) :
    val_main_v60 (F := Ideal) x0 x1 x2 x3 x4 x5 x6 (ix2 n o)
      = Cert.Spec.normAt (oref x0 x1 x2 x3 x4) (Cert.Spec.varTwo (oref x0 x1 x2 x3 x4)) x5 x6 n o := by
  rw [Cert.Spec.normAt, Cert.Spec.cEps]
  rw [val_main_v60_apply, val_main_v59_apply, val_main_v58_apply, idx5859, val_main_v57_apply, val_main_v56_apply,
    val_main_v55_apply, idx5556, val_main_v54_apply, val_main_v53_apply, val_main_v52_apply, idx5253,
    val_main_v51_apply, val_main_v50_apply, var_ref, val_main_v49_apply, val_main_cst_13_apply,
    val_main_v48_apply, val_main_v47_apply, val_main_v46_apply, idx4647, mean_ref]
  simp only [Ideal.addf_def, Ideal.mulf_def, Ideal.subf_def, Ideal.hostUnary_rsqrt_def, Ideal.ofBits_def]
  rfl

end Cert.RefValue

end
-- ==== Proof.LibScatter.lean ====
/-
  A `stablehlo.scatter` whose body returns the update (jax's `x.at[...].set(v)`), read at one operand index.

  The scatter is a left fold over the update indices in row-major order; each step overwrites the operand element
  the update index lands on.  When the update indices that land on a given operand index `i` are at most one,
  the fold at `i` is that update's value, and when no update index lands on `i` it is the operand's own value:
  an induction over the list of update positions, with the statement "the value at `i` is the update's once its
  position has been met, the operand's before".
-/
import Idealize.ShloMosaic.PureOps

namespace Idealize.ShloMosaic.ScatterSet

variable {α : Type} {s si u : Shape} {w : Nat}

/-- One step of the scatter's fold: update position `n` overwrites the element it lands on, if it lands. -/
def step (d : ScatterDims s si u) (f : α → α → α) (idx : IVec si w) (upd : u.Idx → α)
    (r : s.Idx → α) (n : Fin u.numel) : s.Idx → α :=
  match d.resultIdx? (u.rowMajor.symm n) idx with
  | some i => fun i' => if i' = i then f (r i) (upd (u.rowMajor.symm n)) else r i'
  | none => r

theorem scatter_eq_foldl (d : ScatterDims s si u) (f : α → α → α) (x : s.Idx → α) (idx : IVec si w) (upd : u.Idx → α) :
    Host.scatter d f x idx upd = (List.finRange u.numel).foldl (step d f idx upd) x := rfl

/-- A step whose position lands on `i` leaves the update there. -/
theorem step_hit (d : ScatterDims s si u) (idx : IVec si w) (upd : u.Idx → α) (r : s.Idx → α) (n : Fin u.numel)
    (i : s.Idx) (h : d.resultIdx? (u.rowMajor.symm n) idx = some i) :
    step d (fun _ b => b) idx upd r n i = upd (u.rowMajor.symm n) := by
  unfold step
  rw [h]
  exact if_pos rfl

/-- A step whose position does not land on `i` leaves `i` alone. -/
theorem step_miss (d : ScatterDims s si u) (f : α → α → α) (idx : IVec si w) (upd : u.Idx → α) (r : s.Idx → α) (n : Fin u.numel)
    (i : s.Idx) (h : d.resultIdx? (u.rowMajor.symm n) idx ≠ some i) :
    step d f idx upd r n i = r i := by
  unfold step
  cases h' : d.resultIdx? (u.rowMajor.symm n) idx with
  | none => rfl
  | some i0 =>
    have hne : i ≠ i0 := fun e => h (by rw [h', e])
    exact if_neg hne

/-- The fold over any list of positions, at an index that only position `n0` lands on. -/
theorem foldl_apply (d : ScatterDims s si u) (idx : IVec si w) (upd : u.Idx → α) (i : s.Idx) (n0 : Fin u.numel)
    (hhit : d.resultIdx? (u.rowMajor.symm n0) idx = some i)
    (huniq : ∀ n, d.resultIdx? (u.rowMajor.symm n) idx = some i → n = n0) :
    ∀ (l : List (Fin u.numel)) (x : s.Idx → α),
      l.foldl (step d (fun _ b => b) idx upd) x i = if n0 ∈ l then upd (u.rowMajor.symm n0) else x i := by
  intro l
  induction l with
  | nil => intro x; simp
  | cons n l ih =>
    intro x
    rw [List.foldl_cons, ih]
    by_cases hl : n0 ∈ l
    · rw [if_pos hl, if_pos (List.mem_cons_of_mem _ hl)]
    · rw [if_neg hl]
      by_cases hn : n = n0
      · subst hn
        rw [if_pos (List.mem_cons_self ..), step_hit d idx upd x n i hhit]
      · have hmiss : d.resultIdx? (u.rowMajor.symm n) idx ≠ some i := fun e => hn (huniq n e)
        rw [step_miss d _ idx upd x n i hmiss, if_neg]
        intro hmem
        rcases List.mem_cons.mp hmem with e | e
        · exact hn e.symm
        · exact hl e

/-- The fold over any list of positions, at an index no position lands on. -/
theorem foldl_apply_miss (d : ScatterDims s si u) (f : α → α → α) (idx : IVec si w) (upd : u.Idx → α) (i : s.Idx)
    (hmiss : ∀ n, d.resultIdx? (u.rowMajor.symm n) idx ≠ some i) :
    ∀ (l : List (Fin u.numel)) (x : s.Idx → α), l.foldl (step d f idx upd) x i = x i := by
  intro l
  induction l with
  | nil => intro x; rfl
  | cons n l ih => intro x; rw [List.foldl_cons, ih, step_miss d f idx upd x n i (hmiss n)]

/-- THE SET-SCATTER AT A HIT: if update index `j` lands on `i` and no other update index does, the result at `i` is the update at `j`. -/
theorem scatter_apply_hit (d : ScatterDims s si u) (x : s.Idx → α) (idx : IVec si w) (upd : u.Idx → α) (i : s.Idx) (j : u.Idx)
    (hj : d.resultIdx? j idx = some i) (huniq : ∀ j', d.resultIdx? j' idx = some i → j' = j) :
    Host.scatter d (fun _ b => b) x idx upd i = upd j := by
  rw [scatter_eq_foldl]
  have h0 : u.rowMajor.symm (u.rowMajor j) = j := Equiv.symm_apply_apply _ _
  rw [foldl_apply d idx upd i (u.rowMajor j) (by rw [h0]; exact hj)
    (fun n hn => by rw [← huniq _ hn]; exact (Equiv.apply_symm_apply _ _).symm), if_pos (List.mem_finRange _), h0]

/-- THE SET-SCATTER AT A MISS: where no update index lands, the operand's element stays. -/
theorem scatter_apply_miss (d : ScatterDims s si u) (f : α → α → α) (x : s.Idx → α) (idx : IVec si w) (upd : u.Idx → α) (i : s.Idx)
    (hmiss : ∀ j', d.resultIdx? j' idx ≠ some i) :
    Host.scatter d f x idx upd i = x i := by
  rw [scatter_eq_foldl]
  exact foldl_apply_miss d f idx upd i (fun n => hmiss _) _ x

end Idealize.ShloMosaic.ScatterSet
-- ==== Proof.RefScatter.lean ====
/-
  Where the reference's overwrite lands.  The update row of node `k` is written at the row whose number is the
  index word `7 k + 6` (computed in 32-bit words; `7 · 99999 + 6` is far below `2³¹`, so nothing wraps and the
  "negative index" branch of the select is never taken), column by column.  Hence row `7 n + 6` of the result
  is row `n` of `x`, and a row `7 n + t` with `t < 6` is not touched.
-/
import proofs.«151229_j77695958385178_2_alg».proof.Proof.Spec
import proofs.«151229_j77695958385178_2_alg».proof.Proof.Gen.ReferenceIdeal.Read
import proofs.«151229_j77695958385178_2_alg».proof.Proof.LibScatter

noncomputable section

open scoped BigOperators

namespace Cert.RefValue

open Cert.ReferenceIdeal Cert.ReferenceIdeal.Read Idealize.ShloMosaic Idealize.ShloMosaic.ValueIdx

/-- The overwrite's dimension numbers. -/
abbrev sd : ScatterDims S700000x128 S100000x1 S100000x128 := scatter_S700000x128_S100000x1_S100000x128_1_0_0_1

/-- The start of the window along the rows is the index word of the update's row, read signed. -/
theorem sd_start0 (k : Fin 100000) (c : Fin 128) (idx : IVec S100000x1 32) :
    sd.start (ix2 k c) idx 0 = (idx (ix2 k 0)).toInt := by
  unfold ScatterDims.start
  rw [dif_pos (show (0 : Fin 2) ∈ sd.scatterDimsToOperandDims from List.mem_singleton.mpr rfl)]
  refine congrArg (fun i => (idx i).toInt) (funext fun b => Fin.ext ?_)
  match b with
  | ⟨0, _⟩ => rfl
  | ⟨1, _⟩ => rfl

/-- Along the columns the window starts at zero. -/
theorem sd_start1 (k : Fin 100000) (c : Fin 128) (idx : IVec S100000x1 32) :
    sd.start (ix2 k c) idx 1 = 0 := by
  unfold ScatterDims.start
  rw [dif_neg (show ¬ (1 : Fin 2) ∈ sd.scatterDimsToOperandDims by decide)]

/-- The row axis is inserted: no window coordinate. -/
theorem sd_window0 (k : Fin 100000) (c : Fin 128) : sd.window (ix2 k c) 0 = 0 := by
  unfold ScatterDims.window
  rw [dif_neg (show ¬ (0 : Fin 2) ∈ sd.sKept by decide)]

/-- The column axis carries the update's column. -/
theorem sd_window1 (k : Fin 100000) (c : Fin 128) : sd.window (ix2 k c) 1 = c.val := by
  unfold ScatterDims.window
  rw [dif_pos (show (1 : Fin 2) ∈ sd.sKept by decide)]
  rfl

/-- WHERE AN UPDATE LANDS: if the index word of row `k`, read signed, is the row number `r`, update element
    `(k, c)` lands on `(r, c)`. -/
theorem sd_resultIdx (k : Fin 100000) (c : Fin 128) (idx : IVec S100000x1 32) (r : Fin 700000)
    (hr : (idx (ix2 k 0)).toInt = (r.val : Int)) :
    sd.resultIdx? (ix2 k c) idx = some (ix2 r c) := by
  have hr' := r.isLt
  have hc' := c.isLt
  have h : ∀ a, 0 ≤ sd.start (ix2 k c) idx a + sd.window (ix2 k c) a
      ∧ sd.start (ix2 k c) idx a + sd.window (ix2 k c) a < S700000x128.size a := by
    refine Fin.forall_fin_two.mpr ⟨?_, ?_⟩
    · rw [sd_start0, sd_window0, hr]
      have h0 : S700000x128.size 0 = 700000 := rfl
      rw [h0]
      omega
    · rw [sd_start1, sd_window1]
      have h1 : S700000x128.size 1 = 128 := rfl
      rw [h1]
      omega
  unfold ScatterDims.resultIdx?
  rw [dif_pos h]
  refine congrArg some (funext fun a => Fin.ext ?_)
  match a with
  | ⟨0, _⟩ =>
    show (sd.start (ix2 k c) idx 0 + sd.window (ix2 k c) 0).toNat = r.val
    rw [sd_start0, sd_window0, hr]
    omega
  | ⟨1, _⟩ =>
    show (sd.start (ix2 k c) idx 1 + sd.window (ix2 k c) 1).toNat = c.val
    rw [sd_start1, sd_window1]
    omega

/-- The index array is read at the update's row. -/
theorem idx32 (k : Fin 100000) : idx_main_v32 (ix2 k (0 : Fin 1)) = ix1 k := by
  funext a
  match a with
  | ⟨0, _⟩ => rfl

/-- In 32-bit words `k · 7 + 6` is the word of the number `7 k + 6`. -/
theorem word_eq (k : Fin 100000) :
    IntOp.addi (IntOp.muli (BitVec.ofNat 32 k.val) 7#32) 6#32 = BitVec.ofNat 32 (7 * k.val + 6) := by
  have hk := k.isLt
  unfold IntOp.addi IntOp.muli
  apply BitVec.eq_of_toNat_eq
  simp only [BitVec.toNat_add, BitVec.toNat_mul, BitVec.toNat_ofNat, Nat.reducePow, Nat.reduceMod]
  omega

/-- Read signed, that word is `7 k + 6`: it is below `2³¹`. -/
theorem word_toInt (k : Fin 100000) : (BitVec.ofNat 32 (7 * k.val + 6)).toInt = ((7 * k.val + 6 : Nat) : Int) := by
  have hk := k.isLt
  have hn : (BitVec.ofNat 32 (7 * k.val + 6)).toNat = 7 * k.val + 6 := by
    simp only [BitVec.toNat_ofNat, Nat.reducePow]
    omega
  rw [BitVec.toInt_eq_toNat_of_lt (by rw [hn]; omega), hn]

/-- The index word of row `k`: the select keeps `7 k + 6`, which is not negative. -/
theorem v32_word (k : Fin 100000) :
    val_main_v32 (F := Ideal) (ix2 k (0 : Fin 1)) = BitVec.ofNat 32 (7 * k.val + 6) := by
  rw [val_main_v32_apply, idx32, val_main_v31_apply, val_main_v28_apply, val_main_v26_apply, val_main_v24_apply,
    val_main_v22_apply, val_main_v23_apply, val_main_c_5_apply, val_main_v25_apply, val_main_c_6_apply,
    val_main_v27_apply, val_main_c_7_apply]
  show Scalar.select (IntOp.cmpi .slt (IntOp.addi (IntOp.muli (BitVec.ofNat 32 k.val) 7#32) 6#32) 0#32) _
    (IntOp.addi (IntOp.muli (BitVec.ofNat 32 k.val) 7#32) 6#32) = _
  rw [word_eq]
  have hslt : (BitVec.ofNat 32 (7 * k.val + 6)).slt 0#32 = false := by
    rw [BitVec.slt_eq_decide, word_toInt, BitVec.toInt_zero]
    exact decide_eq_false (by omega)
  have hc : IntOp.cmpi .slt (BitVec.ofNat 32 (7 * k.val + 6)) 0#32 = 0#1 := by
    show BitVec.ofBool ((BitVec.ofNat 32 (7 * k.val + 6)).slt 0#32) = 0#1
    rw [hslt]
    rfl
  rw [hc]
  exact select_zero _ _

/-- Update element `(k, c)` lands on row `7 k + 6`, column `c`. -/
theorem landing (k : Fin 100000) (c : Fin 128) :
    sd.resultIdx? (ix2 k c) (val_main_v32 (F := Ideal)) = some (ix2 (Cert.Spec.seg k 6) c) := by
  refine sd_resultIdx k c _ (Cert.Spec.seg k 6) ?_
  rw [v32_word, word_toInt]
  rfl

end Cert.RefValue

end
-- ==== Proof.RefIdx.lean ====
/-
  The index arithmetic of the reference's dense layer.  The 896 weight rows are the pairs (slot `t < 7`, feature
  `c < 128`) at row `128 t + c`, so a sum over the rows is a double sum over slots and features; and the
  reshape of the `[700000, 128]` array into `[100000, 896]` puts entry `(n, 128 t + c)` at row `7 n + t`,
  column `c`, because `(896 n + 128 t + c) / 128 = 7 n + t` and the remainder is `c`.
-/
import proofs.«151229_j77695958385178_2_alg».proof.Proof.Spec
import proofs.«151229_j77695958385178_2_alg».proof.Proof.Gen.ReferenceIdeal.Read

noncomputable section

open scoped BigOperators

namespace Cert.RefValue

open Cert.ReferenceIdeal Cert.ReferenceIdeal.Read Idealize.ShloMosaic Idealize.ShloMosaic.ValueIdx

/-- Weight row `128 t + c` for the pair (slot `t`, feature `c`), as a bijection. -/
def slotEquiv : Fin 7 × Fin 128 ≃ Fin 896 where
  toFun p := Cert.Spec.wrow p.1 p.2
  invFun k := (⟨k.val / 128, by have := k.isLt; omega⟩, ⟨k.val % 128, by omega⟩)
  left_inv p := by
    obtain ⟨t, c⟩ := p
    have ht := t.isLt
    have hc := c.isLt
    refine Prod.ext (Fin.ext ?_) (Fin.ext ?_)
    · show (128 * t.val + c.val) / 128 = t.val
      omega
    · show (128 * t.val + c.val) % 128 = c.val
      omega
  right_inv k := by
    refine Fin.ext ?_
    show 128 * (k.val / 128) + k.val % 128 = k.val
    omega

/-- A sum over the weight rows is a sum over slots of sums over features. -/
theorem sum_slots {M : Type} [AddCommMonoid M] (g : Fin 896 → M) :
    ∑ k, g k = ∑ t : Fin 7, ∑ c : Fin 128, g (Cert.Spec.wrow t c) := by
  rw [← Equiv.sum_comp slotEquiv g, Fintype.sum_prod_type]
  rfl

/-- The reshape: entry `(n, 128 t + c)` of the `[100000, 896]` view is entry `(7 n + t, c)`. -/
theorem idx34 (n : Fin 100000) (o : Fin 128) (t : Fin 7) (c : Fin 128) :
    idx_main_v34 (lidx_main_v35 (ix2 n o) (Cert.Spec.wrow t c)) = ix2 (Cert.Spec.seg n t) c := by
  have hc := c.isLt
  funext a
  match a with
  | ⟨0, _⟩ =>
    refine Fin.ext ?_
    show (n.val * 896 + (128 * t.val + c.val)) / 128 = 7 * n.val + t.val
    omega
  | ⟨1, _⟩ =>
    refine Fin.ext ?_
    show (n.val * 896 + (128 * t.val + c.val)) % 128 = c.val
    omega

/-- The weights are read at row `128 t + c`, column `o`. -/
theorem ridx35 (n : Fin 100000) (o : Fin 128) (k : Fin 896) :
    ridx_main_v35 (ix2 n o) k = ix2 k o := by
  funext a
  match a with
  | ⟨0, _⟩ => rfl
  | ⟨1, _⟩ => rfl

end Cert.RefValue

end
-- ==== Proof.RefOut.lean ====
/-
  The reference's dense layer is the specification's.  Row `7 n + t` of the array the matmul reads is, for
  `t < 6`, the segment sum divided by the clamped count — and a quotient `a / y` with `y ≠ 0` is `a · (1 / y)`;
  the count is at least one, hence not zero — and, for `t = 6`, the node's own row, which the overwrite put
  there.  Regrouping the 896 products by slot gives the specification's double sum.
-/
import proofs.«151229_j77695958385178_2_alg».proof.Proof.Spec
import proofs.«151229_j77695958385178_2_alg».proof.Proof.Gen.ReferenceIdeal.Read
import proofs.«151229_j77695958385178_2_alg».proof.Proof.RefTail
import proofs.«151229_j77695958385178_2_alg».proof.Proof.RefScatter
import proofs.«151229_j77695958385178_2_alg».proof.Proof.RefIdx
import Idealize.ShloMosaic.Lib.IdealHost

noncomputable section

open scoped BigOperators

namespace Cert.RefValue

open Cert.ReferenceIdeal Cert.ReferenceIdeal.Read Idealize.ShloMosaic Idealize.ShloMosaic.ValueIdx

variable (x0 : (⟨S100000x128, .f32⟩ : BufTy).Contents (Elt Ideal)) (x1 x2 x3 : (⟨S700000, .i32⟩ : BufTy).Contents (Elt Ideal))
  (x4 : (⟨S896x128, .f32⟩ : BufTy).Contents (Elt Ideal))

/-- Row `7 n + 6` of the overwritten array is row `n` of `x`: only update row `n` lands there. -/
theorem v33_self (n : Fin 100000) (c : Fin 128) :
    val_main_v33 (F := Ideal) x0 x1 x2 x3 (ix2 (Cert.Spec.seg n 6) c) = x0 (ix2 n c) := by
  unfold val_main_v33
  refine ScatterSet.scatter_apply_hit sd _ _ _ _ (ix2 n c) (landing n c) ?_
  intro j' hj'
  obtain ⟨k, c', rfl⟩ : ∃ k c', j' = ix2 k c' := ⟨j' 0, j' 1, eq_ix2 j'⟩
  rw [landing k c'] at hj'
  have he := Option.some.inj hj'
  have h0 : Cert.Spec.seg k 6 = Cert.Spec.seg n 6 := congrFun he 0
  have h1 : c' = c := congrFun he 1
  have hv : 7 * k.val + 6 = 7 * n.val + 6 := congrArg Fin.val h0
  have hk : k = n := Fin.ext (by omega)
  rw [hk, h1]

/-- A row `7 n + t` with `t < 6` is not overwritten: every update lands on a row `≡ 6 (mod 7)`. -/
theorem v33_other (n : Fin 100000) (t : Fin 7) (ht : t.val < 6) (c : Fin 128) :
    val_main_v33 (F := Ideal) x0 x1 x2 x3 (ix2 (Cert.Spec.seg n t) c)
      = val_main_v21 (F := Ideal) x0 x1 x2 x3 (ix2 (Cert.Spec.seg n t) c) := by
  unfold val_main_v33
  refine ScatterSet.scatter_apply_miss sd _ _ _ _ _ ?_
  intro j' hj'
  obtain ⟨k, c', rfl⟩ : ∃ k c', j' = ix2 k c' := ⟨j' 0, j' 1, eq_ix2 j'⟩
  rw [landing k c'] at hj'
  have he := Option.some.inj hj'
  have h0 : Cert.Spec.seg k 6 = Cert.Spec.seg n t := congrFun he 0
  have hv : 7 * k.val + 6 = 7 * n.val + t.val := congrArg Fin.val h0
  omega

/-- The count broadcast along the features is read at the row. -/
theorem idx1920 (s : Fin 700000) (c : Fin 128) : idx_main_v19 (idx_main_v20 (ix2 s c)) = ix1 s := by
  funext a
  match a with
  | ⟨0, _⟩ => rfl

/-- The mean slot before the overwrite: segment sum over clamped count. -/
theorem v21_at (s : Fin 700000) (c : Fin 128) :
    val_main_v21 (F := Ideal) x0 x1 x2 x3 (ix2 s c)
      = Ideal.div (val_main_v12 (F := Ideal) x0 x1 x2 x3 (ix2 s c)) (val_main_v18 (F := Ideal) x1 x3 (ix1 s)) := by
  rw [val_main_v21_apply, val_main_v20_apply, val_main_v19_apply, idx1920]
  rfl

/-- The clamped count is at least one, so it is not zero. -/
theorem cnt1_ne_zero (s : Fin 700000) : val_main_v18 (F := Ideal) x1 x3 (ix1 s) ≠ 0 := by
  rw [val_main_v18_apply, val_main_v17_apply, val_main_cst_4_apply]
  simp only [Ideal.maximumf_def, Ideal.ofBits_def, Ideal.ofBits_one_f32]
  intro h
  have h1 : (1 : EReal) ≤ max (val_main_v16 (F := Ideal) x1 x3 (ix1 s)) 1 := le_max_right _ _
  rw [h] at h1
  exact absurd h1 (by simp)

/-- One entry of the array the matmul reads is the specification's slot entry. -/
theorem col_ref (n : Fin 100000) (t : Fin 7) (c : Fin 128) :
    val_main_v33 (F := Ideal) x0 x1 x2 x3 (ix2 (Cert.Spec.seg n t) c)
      = Cert.Spec.col x0 (val_main_v12 (F := Ideal) x0 x1 x2 x3) (val_main_v18 (F := Ideal) x1 x3) n t c := by
  unfold Cert.Spec.col
  by_cases ht : t.val < 6
  · rw [if_pos ht, v33_other x0 x1 x2 x3 n t ht c, v21_at, Cert.Spec.cOne, Ideal.ofBits_one_f32,
      Ideal.mul_one_div (cnt1_ne_zero x1 x3 _)]
  · rw [if_neg ht]
    have h6 : t = 6 := Fin.ext (by have := t.isLt; show t.val = 6; omega)
    subst h6
    exact v33_self x0 x1 x2 x3 n c

/-- THE DENSE LAYER: the reference's matmul entry is the specification's. -/
theorem out_ref (n : Fin 100000) (o : Fin 128) :
    oref x0 x1 x2 x3 x4 n o
      = Cert.Spec.out x0 (val_main_v12 (F := Ideal) x0 x1 x2 x3) (val_main_v18 (F := Ideal) x1 x3) x4 n o := by
  unfold oref Cert.Spec.out
  rw [val_main_v35_apply, sum_slots]
  refine Finset.sum_congr rfl fun t _ => Finset.sum_congr rfl fun c _ => ?_
  rw [val_main_v34_apply, idx34, ridx35, col_ref]

end Cert.RefValue

end
-- ==== Proof.RefValue.lean ====
/-
  THE REFERENCE'S VALUE.  Entry `(n, o)` of the reference's result is the normalisation, with the two-pass
  variance, of its dense layer, and the dense layer is the specification's `out` of `x`, the segment sums and
  the clamped counts; so the whole result is the specification's `GTwo`.
-/
import proofs.«151229_j77695958385178_2_alg».proof.Proof.Spec
import proofs.«151229_j77695958385178_2_alg».proof.Proof.Gen.ReferenceIdeal.Read
import proofs.«151229_j77695958385178_2_alg».proof.Proof.RefTail
import proofs.«151229_j77695958385178_2_alg».proof.Proof.RefOut

noncomputable section

open scoped BigOperators

namespace Cert.RefValue

open Cert.ReferenceIdeal Cert.ReferenceIdeal.Read Idealize.ShloMosaic Idealize.ShloMosaic.ValueIdx

theorem ref_value (x0 : (⟨S100000x128, .f32⟩ : BufTy).Contents (Elt Ideal)) (x1 x2 x3 : (⟨S700000, .i32⟩ : BufTy).Contents (Elt Ideal))
    (x4 : (⟨S896x128, .f32⟩ : BufTy).Contents (Elt Ideal)) (x5 x6 : (⟨S128, .f32⟩ : BufTy).Contents (Elt Ideal)) :
    Cert.ReferenceIdeal.Read.val_main_v60 (F := Ideal) x0 x1 x2 x3 x4 x5 x6
      = Cert.Spec.GTwo x0 (Cert.ReferenceIdeal.Read.val_main_v12 (F := Ideal) x0 x1 x2 x3)
          (Cert.ReferenceIdeal.Read.val_main_v18 (F := Ideal) x1 x3) x4 x5 x6 := by
  have hout : oref x0 x1 x2 x3 x4
      = Cert.Spec.out x0 (val_main_v12 (F := Ideal) x0 x1 x2 x3) (val_main_v18 (F := Ideal) x1 x3) x4 :=
    funext fun n => funext fun o => out_ref x0 x1 x2 x3 x4 n o
  funext j
  obtain ⟨n, o, rfl⟩ : ∃ n o, j = ix2 n o := ⟨j 0, j 1, eq_ix2 j⟩
  rw [tail_ref, Cert.Spec.GTwo, Cert.Spec.norm_ix2, hout]

end Cert.RefValue

end
-- ==== Proof.LibIsReal.lean ====
/-
  Extended reals that are real numbers.

  On the extended reals the field laws (distributivity, cancelling, moving a factor across a sum) fail at the
  infinities, so a value proof that needs one first shows its operands are real. `IsReal a` says `a` is the image of a
  real number; it is closed under sums, differences, products, finite sums and quotients by a nonzero real, holds of
  every integer-valued float, and holds of every IEEE word whose exponent field is not all ones (a zero, a subnormal or
  a normal number: everything but the infinities and the NaN patterns). With operands real, an identity of the real
  field transfers by pushing the coercion out (`← EReal.coe_add`, `← EReal.coe_mul`, …) and `ring`.
-/
import Idealize.ShloMosaic.PureOps.Ideal

noncomputable section

namespace Cert

open Idealize.ShloMosaic

/-- `a` is a real number. -/
def IsReal (a : EReal) : Prop := ∃ r : ℝ, a = (r : EReal)

theorem IsReal.coe (r : ℝ) : IsReal (r : EReal) := ⟨r, rfl⟩
theorem IsReal.zero : IsReal 0 := ⟨0, rfl⟩
theorem IsReal.add {a b : EReal} (ha : IsReal a) (hb : IsReal b) : IsReal (a + b) := by
  obtain ⟨x, rfl⟩ := ha; obtain ⟨y, rfl⟩ := hb; exact ⟨x + y, (EReal.coe_add x y).symm⟩
theorem IsReal.sub {a b : EReal} (ha : IsReal a) (hb : IsReal b) : IsReal (a - b) := by
  obtain ⟨x, rfl⟩ := ha; obtain ⟨y, rfl⟩ := hb; exact ⟨x - y, (EReal.coe_sub x y).symm⟩
theorem IsReal.mul {a b : EReal} (ha : IsReal a) (hb : IsReal b) : IsReal (a * b) := by
  obtain ⟨x, rfl⟩ := ha; obtain ⟨y, rfl⟩ := hb; exact ⟨x * y, (EReal.coe_mul x y).symm⟩
theorem IsReal.sum {ι : Type} (s : Finset ι) (f : ι → EReal) (h : ∀ i, IsReal (f i)) : IsReal (∑ i ∈ s, f i) := by
  classical
  induction s using Finset.induction_on with
  | empty => simpa using IsReal.zero
  | insert a s ha ih => rw [Finset.sum_insert ha]; exact (h a).add ih
/-- A quotient by a nonzero real. -/
theorem IsReal.div {a : EReal} (ha : IsReal a) {y : ℝ} (hy : y ≠ 0) : IsReal (Ideal.div a (y : EReal)) := by
  rw [Ideal.div_coe hy]; exact ha.mul (IsReal.coe _)

/-- A word of an IEEE format with `e` exponent bits and `mm` fraction bits whose exponent field is not all ones denotes
    a real number (for a literal word the side condition is decided: `isReal_ieee 8 23 _ (by decide)`). -/
theorem isReal_ieee (e mm : Nat) {w : Nat} (b : BitVec w) (h : (b.extractLsb' mm e).toNat ≠ 2 ^ e - 1) :
    IsReal (Ideal.ieee e mm b) := by
  unfold Ideal.ieee
  simp only []
  rw [if_neg h]
  split <;> exact ⟨_, rfl⟩

end Cert

end
-- ==== Proof.VarLaw.lean ====
/-
  The two statements of the variance agree on real data.

  For real numbers `r 1, …, r N` with mean `μ = (∑ r) / N`,
  `∑ (r n - μ)² = ∑ r n² - 2 μ ∑ r + N μ² = ∑ r n² - N μ²`, so the mean of the squared deviations is the mean of the
  squares minus `μ²`; being a mean of squares it is nonnegative, so clamping it at zero changes nothing.  On the
  extended reals the identity needs every entry to be a real number (the distributive law fails at the infinities):
  with real entries each sum, each quotient by `N = 100000` and each product is the image of the real one, and the
  identity is transferred from the reals.
-/
import proofs.«151229_j77695958385178_2_alg».proof.Proof.Spec
import proofs.«151229_j77695958385178_2_alg».proof.Proof.LibIsReal

noncomputable section

open scoped BigOperators

namespace Cert.Finite

open Idealize.ShloMosaic Cert.Spec

/-- The word `0x47C35000` is `(2^23 + 4411392) · 2^(143 - 127 - 23) = 12800000 / 128 = 100000`. -/
theorem cN_eq : cN = ((100000 : ℝ) : EReal) := by
  unfold cN Ideal.ofBits Ideal.ieee
  simp
  rw [← EReal.coe_mul]
  norm_num

/-- The all-zero word is zero. -/
theorem cZero_eq : cZero = 0 := by
  unfold cZero Ideal.ofBits Ideal.ieee
  simp

/-- The word `0x3F800000` is `2^23 · 2^(127 - 127 - 23) = 1`. -/
theorem cOne_eq : cOne = 1 := by
  unfold cOne Ideal.ofBits Ideal.ieee
  simp
  rw [← EReal.coe_mul]
  norm_num

/-- A finite sum of images of reals is the image of the real sum. -/
theorem coe_sum {ι : Type} (s : Finset ι) (r : ι → ℝ) :
    ∑ i ∈ s, ((r i : ℝ) : EReal) = ((∑ i ∈ s, r i : ℝ) : EReal) := by
  classical
  induction s using Finset.induction_on with
  | empty => simp
  | insert a s ha ih => rw [Finset.sum_insert ha, Finset.sum_insert ha, ih, EReal.coe_add]

/-- The real identity: with `μ = (∑ r) / N`, the mean of the squared deviations from `μ` is the mean of the squares
    minus `μ²` (`N = 100000`, the number of terms). -/
theorem real_var (r : Fin 100000 → ℝ) :
    (∑ n, (r n - (∑ m, r m) * (1 / 100000)) * (r n - (∑ m, r m) * (1 / 100000))) * (1 / 100000)
      = (∑ n, r n * r n) * (1 / 100000) - ((∑ m, r m) * (1 / 100000)) * ((∑ m, r m) * (1 / 100000)) := by
  set S := ∑ m, r m with hS
  have h1 : ∀ n, (r n - S * (1 / 100000)) * (r n - S * (1 / 100000))
      = r n * r n - (2 * (S * (1 / 100000))) * r n + (S * (1 / 100000)) * (S * (1 / 100000)) := fun n => by ring
  simp only [h1]
  rw [Finset.sum_add_distrib, Finset.sum_sub_distrib, ← Finset.mul_sum, Finset.sum_const, Finset.card_univ,
    Fintype.card_fin, ← hS]
  simp only [nsmul_eq_mul]
  push_cast
  ring

/-- The mean of a real column is the image of the real mean. -/
theorem mean_coe (f : Fin 100000 → Fin 128 → EReal) (o : Fin 128) (r : Fin 100000 → ℝ)
    (hr : ∀ n, f n o = ((r n : ℝ) : EReal)) :
    mean f o = (((∑ m, r m) * (1 / 100000) : ℝ) : EReal) := by
  have hN : (100000 : ℝ) ≠ 0 := by norm_num
  unfold mean
  simp only [hr]
  rw [cN_eq, Ideal.div_coe hN, coe_sum, ← EReal.coe_mul]

/-- The mean of a real column is real. -/
theorem mean_real (f : Fin 100000 → Fin 128 → EReal) (hf : ∀ n o, IsReal (f n o)) (o : Fin 128) :
    IsReal (mean f o) := by
  choose r hr using fun n => hf n o
  exact ⟨_, mean_coe f o r hr⟩

/-- THE VARIANCE LAW: on real data the mean of the squared deviations is the mean of squares minus the squared mean,
    and is nonnegative, so the clamp at zero is the identity. -/
theorem varTwo_eq_varOne (f : Fin 100000 → Fin 128 → EReal) (hf : ∀ n o, IsReal (f n o)) (o : Fin 128) :
    varTwo f o = varOne f o := by
  choose r hr using fun n => hf n o
  have hN : (100000 : ℝ) ≠ 0 := by norm_num
  unfold varTwo varOne
  rw [mean_coe f o r hr]
  simp only [hr]
  simp only [← EReal.coe_sub, ← EReal.coe_mul]
  rw [coe_sum, coe_sum, cN_eq, Ideal.div_coe hN, Ideal.div_coe hN, ← EReal.coe_mul, ← EReal.coe_mul, ← EReal.coe_sub,
    cZero_eq, real_var]
  refine (max_eq_left ?_).symm
  rw [← real_var]
  refine EReal.coe_nonneg.mpr (mul_nonneg (Finset.sum_nonneg fun n _ => mul_self_nonneg _) (by norm_num))

/-- The variance of a real column is real (either form). -/
theorem varTwo_real (f : Fin 100000 → Fin 128 → EReal) (hf : ∀ n o, IsReal (f n o)) (o : Fin 128) :
    IsReal (varTwo f o) := by
  have hN : (100000 : ℝ) ≠ 0 := by norm_num
  unfold varTwo
  rw [cN_eq]
  refine IsReal.div (IsReal.sum _ _ fun n => ?_) hN
  exact ((hf n o).sub (mean_real f hf o)).mul ((hf n o).sub (mean_real f hf o))

/-- The two results agree once the dense layer's entries are real. -/
theorem GTwo_eq_G (x : (⟨2, ![100000, 128]⟩ : Shape).Idx → EReal) (sums : (⟨2, ![700000, 128]⟩ : Shape).Idx → EReal)
    (cnt1 : (⟨1, ![700000]⟩ : Shape).Idx → EReal) (w : (⟨2, ![896, 128]⟩ : Shape).Idx → EReal)
    (γ β : (⟨1, ![128]⟩ : Shape).Idx → EReal)
    (hout : ∀ n o, IsReal (out x sums cnt1 w n o)) :
    GTwo x sums cnt1 w γ β = G x sums cnt1 w γ β := by
  have h : varTwo (out x sums cnt1 w) = varOne (out x sums cnt1 w) :=
    funext fun o => varTwo_eq_varOne _ hout o
  unfold GTwo G
  rw [h]

end Cert.Finite

end
-- ==== Proof.Finite.lean ====
/-
  Every number the dense layer is built from is a real number.

  The precondition says each float input has absolute value below `+∞`; on the extended reals that leaves exactly the
  real numbers (`-∞` has absolute value `+∞`).  A segment sum is zero plus a finite sum of entries of `x`, so it is
  real; an edge count is zero plus a finite sum of ones, so it is real, and raised to at least one it is a real number
  `≥ 1`, in particular nonzero, so its reciprocal is real.  A dense-layer entry is a finite sum of products of these and
  of weights, so it is real.
-/
import proofs.«151229_j77695958385178_2_alg».proof.Proof.Spec
import proofs.«151229_j77695958385178_2_alg».proof.Proof.LibIsReal
import proofs.«151229_j77695958385178_2_alg».proof.Proof.VarLaw
import proofs.«151229_j77695958385178_2_alg».proof.Proof.Gen.ReferenceIdeal.Read
import proofs.«151229_j77695958385178_2_alg».proof.Proof.Gen.Pre_finite_inputs
import Idealize.ShloMosaic.Lib.ReduceAll

noncomputable section

open scoped BigOperators

namespace Cert.Finite

open Idealize.ShloMosaic Idealize.ShloMosaic.ValueIdx Cert.Spec

/-- A dense-layer entry is a sum over slots and features of (segment sum × reciprocal count, or the node's own
    feature) × weight: real when all of those are. -/
theorem out_real (x : (⟨2, ![100000, 128]⟩ : Shape).Idx → EReal) (sums : (⟨2, ![700000, 128]⟩ : Shape).Idx → EReal)
    (cnt1 : (⟨1, ![700000]⟩ : Shape).Idx → EReal) (w : (⟨2, ![896, 128]⟩ : Shape).Idx → EReal)
    (hx : ∀ i, IsReal (x i)) (hs : ∀ i, IsReal (sums i))
    (hc : ∀ i, IsReal (Ideal.div cOne (cnt1 i))) (hw : ∀ i, IsReal (w i)) :
    ∀ n o, IsReal (out x sums cnt1 w n o) := by
  intro n o
  unfold out
  refine IsReal.sum _ _ fun t => IsReal.sum _ _ fun c => IsReal.mul ?_ (hw _)
  unfold col
  split
  · exact (hs _).mul (hc _)
  · exact hx _

instance : Subsingleton Cert.Pre_finite_inputs.S_.Idx := ⟨fun a b => funext fun d => d.elim0⟩

/-- The word `0x7F800000` (exponent field all ones, fraction zero, sign clear) is `+∞`. -/
theorem inf_word : Ideal.ofBits .f32 0x7F800000#32 = (⊤ : EReal) := by
  simp [Ideal.ofBits, Ideal.ieee]

/-- An extended real whose absolute value `max a (-a)` is below `+∞` is a real number: `-∞` has absolute value `+∞`. -/
theorem isReal_of_abs_lt (a : EReal)
    (h : Ideal.cmp .olt (max a (-a)) (Ideal.ofBits .f32 0x7F800000#32) = 1#1) : IsReal a := by
  rw [inf_word] at h
  unfold Ideal.cmp at h
  induction a using EReal.rec with
  | bot => simp at h
  | coe r => exact ⟨r, rfl⟩
  | top => simp at h

open Cert.Pre_finite_inputs in
/-- THE PRECONDITION DECODED: the conjunction's first two conjuncts say every entry of `x` and of the weights has
    absolute value below `+∞`, so is real. -/
theorem real_of_pre (x0 : FVec Ideal S100000x128 .f32) (x1 x2 x3 : IVec S700000 32) (x4 : FVec Ideal S896x128 .f32)
    (x5 x6 : FVec Ideal S128 .f32)
    (h : Cert.Pre_finite_inputs.fn (F := Ideal) x0 x1 x2 x3 x4 x5 x6 = fun _ => 1#1) :
    (∀ i, IsReal (x0 i)) ∧ (∀ i, IsReal (x4 i)) := by
  have e := congrFun h ValueIdx.ix0
  dsimp only [Cert.Pre_finite_inputs.fn, Cert.Pre_finite_inputs.fn_part1] at e
  simp only [andi, IntOp.andi_eq_one] at e
  obtain ⟨⟨⟨e0, e4⟩, -⟩, -⟩ := e
  refine ⟨fun i => ?_, fun i => ?_⟩
  · exact isReal_of_abs_lt _ (Host.reduce_andi_all _ _ _ _ ix0 e0 i)
  · exact isReal_of_abs_lt _ (Host.reduce_andi_all _ _ _ _ ix0 e4 i)

/-- The zero word is real. -/
theorem zero_word_real : IsReal (FloatOps.ofBits (F := Ideal) .f32 0x00000000#32) := by
  show IsReal (Ideal.ieee 8 23 (0x00000000#32 : BitVec 32))
  exact isReal_ieee 8 23 _ (by decide)

/-- An accumulating scatter is, at each operand index, the operand's element plus the sum of the updates that land on
    it: real when the operand and the updates are. -/
theorem scatterAdd_real {s si su : Shape} {w : Nat} {φ : FTy} (d : ScatterDims s si su) (x : FVec Ideal s φ)
    (idx : IVec si w) (upd : FVec Ideal su φ) (hx : ∀ i, IsReal (x i)) (hu : ∀ j, IsReal (upd j)) :
    ∀ i, IsReal (Host.scatterAdd d x idx upd i) := by
  intro i
  show IsReal (x i + ∑ j ∈ Finset.univ.filter (fun j => d.resultIdx? j idx = some i), upd j)
  exact (hx i).add (IsReal.sum _ _ hu)

/-- A gather reads, at each result index, one element of its operand: real when the operand is. -/
theorem gather_real {s si t : Shape} {w : Nat} (d : GatherDims s si t) (x : s.Idx → EReal) (idx : IVec si w)
    (hx : ∀ i, IsReal (x i)) : ∀ j, IsReal (Host.gather d x idx j) :=
  fun j => hx _

/-- A segment sum is the zero word plus the sum of the gathered rows of `x` that land on it. -/
theorem sums_real (x0 : FVec Ideal Cert.ReferenceIdeal.S100000x128 .f32) (x1 x2 x3 : IVec Cert.ReferenceIdeal.S700000 32)
    (hx : ∀ i, IsReal (x0 i)) :
    ∀ i, IsReal (Cert.ReferenceIdeal.Read.val_main_v12 (F := Ideal) x0 x1 x2 x3 i) := by
  unfold Cert.ReferenceIdeal.Read.val_main_v12
  refine scatterAdd_real _ _ _ _ (fun i => ?_) (fun j => ?_)
  · rw [Cert.ReferenceIdeal.Read.val_main_v10_apply, Cert.ReferenceIdeal.Read.val_main_cst_apply]
    exact zero_word_real
  · unfold Cert.ReferenceIdeal.Read.val_main_v9
    exact gather_real _ _ _ hx j

/-- An edge count is the zero word plus a sum of one words: a real number. -/
theorem cnt_real (x1 x3 : IVec Cert.ReferenceIdeal.S700000 32) :
    ∀ i, IsReal (Cert.ReferenceIdeal.Read.val_main_v16 (F := Ideal) x1 x3 i) := by
  unfold Cert.ReferenceIdeal.Read.val_main_v16
  refine scatterAdd_real _ _ _ _ (fun i => ?_) (fun j => ?_)
  · rw [Cert.ReferenceIdeal.Read.val_main_v14_apply, Cert.ReferenceIdeal.Read.val_main_cst_3_apply]
    exact zero_word_real
  · rw [Cert.ReferenceIdeal.Read.val_main_v13_apply, Cert.ReferenceIdeal.Read.val_main_cst_2_apply]
    show IsReal (Ideal.ieee 8 23 (0x3F800000#32 : BitVec 32))
    exact isReal_ieee 8 23 _ (by decide)

/-- The count raised to at least one is a real number `≥ 1`, so one over it is real. -/
theorem inv_cnt_real (x1 x3 : IVec Cert.ReferenceIdeal.S700000 32) :
    ∀ i, IsReal (Ideal.div cOne (Cert.ReferenceIdeal.Read.val_main_v18 (F := Ideal) x1 x3 i)) := by
  intro i
  obtain ⟨c, hc⟩ := cnt_real x1 x3 i
  have h17 : Cert.ReferenceIdeal.Read.val_main_v17 (F := Ideal) i = ((1 : ℝ) : EReal) := by
    rw [Cert.ReferenceIdeal.Read.val_main_v17_apply, Cert.ReferenceIdeal.Read.val_main_cst_4_apply]
    exact cOne_eq
  have h18 : Cert.ReferenceIdeal.Read.val_main_v18 (F := Ideal) x1 x3 i = ((max c 1 : ℝ) : EReal) := by
    rw [Cert.ReferenceIdeal.Read.val_main_v18_apply, Ideal.maximumf_def, hc, h17]
    exact (EReal.coe_strictMono.monotone.map_max).symm
  rw [h18]
  have hpos : (max c 1 : ℝ) ≠ 0 := ne_of_gt (lt_of_lt_of_le one_pos (le_max_right c 1))
  exact IsReal.div ⟨1, cOne_eq⟩ hpos

/-- Under the precondition every dense-layer entry of the reference's data is real. -/
theorem out_real_of_pre (x0 : FVec Ideal Cert.Pre_finite_inputs.S100000x128 .f32)
    (x1 x2 x3 : IVec Cert.Pre_finite_inputs.S700000 32) (x4 : FVec Ideal Cert.Pre_finite_inputs.S896x128 .f32)
    (x5 x6 : FVec Ideal Cert.Pre_finite_inputs.S128 .f32)
    (h : Cert.Pre_finite_inputs.fn (F := Ideal) x0 x1 x2 x3 x4 x5 x6 = fun _ => 1#1) :
    ∀ n o, IsReal (out x0 (Cert.ReferenceIdeal.Read.val_main_v12 (F := Ideal) x0 x1 x2 x3) (Cert.ReferenceIdeal.Read.val_main_v18 (F := Ideal) x1 x3) x4 n o) := by
  obtain ⟨h0, h4⟩ := real_of_pre x0 x1 x2 x3 x4 x5 x6 h
  exact out_real x0 _ _ x4 h0 (sums_real x0 x1 x2 x3 h0) (inv_cnt_real x1 x3) h4

end Cert.Finite
end
-- ==== Proof.lean ====
/-
  A relational graph layer with batch normalisation: the kernel against its reference, on the extended reals.

  Both programs form, per node and edge type, the sum of the source rows of the incoming edges (`sums`) and the
  edge count raised to at least one (`cnt1`), by the same host operations. The reference divides, overwrites the
  seventh slot with the node's own row, multiplies the `[100000, 896]` rows with the weights at once, and normalises
  each column by its mean and its variance taken as the mean of squared deviations. The kernel multiplies by the
  reciprocal count, takes the product slot by slot on tiles of 1000 rows, keeps per-tile column sums and sums of
  squares, and takes the variance as mean of squares minus squared mean, clamped at zero.

  The two dense layers agree entry by entry with no finiteness: a product by `1 / c` is the quotient by `c` for
  `c ≠ 0`, and sums regroup freely. The two variances agree where every entry of the dense layer is a real number,
  which the precondition gives: finite `x` and weights make the segment sums, the reciprocal counts and hence
  the dense layer real, and over the reals the mean of squared deviations is the mean of squares minus the squared
  mean, a nonnegative number. Nothing was rewritten by the idealisation, so `preserves` is `True`.
-/
import proofs.«151229_j77695958385178_2_alg».proof.Defs
import proofs.«151229_j77695958385178_2_alg».proof.Proof.Gen.Kernel
import proofs.«151229_j77695958385178_2_alg».proof.Proof.Gen.Kernel.Frame
import proofs.«151229_j77695958385178_2_alg».proof.Proof.Gen.KernelIdeal
import proofs.«151229_j77695958385178_2_alg».proof.Proof.Gen.KernelIdeal.Frame
import proofs.«151229_j77695958385178_2_alg».proof.Proof.Gen.ReferenceIdeal
import proofs.«151229_j77695958385178_2_alg».proof.Proof.Gen.Pre_finite_inputs
import proofs.«151229_j77695958385178_2_alg».proof.Proof.Gen.ReferenceIdeal.Run
import proofs.«151229_j77695958385178_2_alg».proof.Proof.Gen.ReferenceIdeal.Read
import proofs.«151229_j77695958385178_2_alg».proof.Proof.KValue
import proofs.«151229_j77695958385178_2_alg».proof.Proof.RefValue
import proofs.«151229_j77695958385178_2_alg».proof.Proof.VarLaw
import proofs.«151229_j77695958385178_2_alg».proof.Proof.Finite
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- Both runs end with the result at the specification's function of the arguments: the kernel's by its value
    read off the frame run, the reference's by its run read back, the two variances joined by finiteness. -/
theorem algebraic : Cert.algebraic_KernelIdeal_ReferenceIdeal := by
  intro m ρ m' ρ' hpre hagree
  refine ⟨fun c => Cert.Spec.G (m ((c.tc : Thread Cert.KernelIdeal.nD Cert.KernelIdeal.τ).loc Cert.KernelIdeal.main_arg0))
      (Cert.KernelIdeal.Hand.sumsOf m c) (Cert.KernelIdeal.Hand.cnt1Of m c)
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6)), ?_, ?_⟩
  · exact (θ_run Cert.KernelIdeal.defs _ _).mono
      (fun r h c => ⟨(h c).1.trans (Cert.KernelIdeal.Hand.kernel_value m ρ c), (h c).2⟩)
      (Cert.KernelIdeal.Hand.run_named m ρ)
  · refine (θ_run Cert.ReferenceIdeal.defs _ _).mono (fun r h c => ⟨(h c).1.trans ?_, (h c).2⟩)
      (Cert.ReferenceIdeal.Value.run (F := Ideal) m' ρ')
    rw [Cert.ReferenceIdeal.Read.val_main_v60_eq m' c]
    obtain ⟨a0, a1, a2, a3, a4, a5, a6⟩ := hagree c
    rw [a0, a1, a2, a3, a4, a5, a6, Cert.RefValue.ref_value]
    exact Cert.Finite.GTwo_eq_G _ _ _ _ _ _ (Cert.Finite.out_real_of_pre _ _ _ _ _ _ _ (hpre c))

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
